-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S4000x128 : Shape := ⟨2, ![4000, 128]⟩
abbrev S4000x1 : Shape := ⟨2, ![4000, 1]⟩
abbrev S1700000x128 : Shape := ⟨2, ![1700000, 128]⟩
abbrev S1x128 : Shape := ⟨2, ![1, 128]⟩
abbrev S100000x64 : Shape := ⟨2, ![100000, 64]⟩
abbrev S4000x64 : Shape := ⟨2, ![4000, 64]⟩
abbrev S1700000x64 : Shape := ⟨2, ![1700000, 64]⟩
abbrev S1x64 : Shape := ⟨2, ![1, 64]⟩

abbrev nBuf : Space → Nat
  | .hbm => 61
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x128, .bf16⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000x128, .bf16⟩
  | .hbm, ⟨38, _⟩ => ⟨S1700000x128, .f32⟩
  | .hbm, ⟨39, _⟩ => ⟨S_, .f32⟩
  | .hbm, ⟨40, _⟩ => ⟨S100000x128, .f32⟩
  | .hbm, ⟨41, _⟩ => ⟨S1700000x1, .i32⟩
  | .hbm, ⟨42, _⟩ => ⟨S100000x128, .f32⟩
  | .hbm, ⟨43, _⟩ => ⟨S1x128, .f32⟩
  | .hbm, ⟨44, _⟩ => ⟨S100000x64, .bf16⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x64, .bf16⟩
  | .hbm, ⟨54, _⟩ => ⟨S1700000x64, .f32⟩
  | .hbm, ⟨55, _⟩ => ⟨S_, .f32⟩
  | .hbm, ⟨56, _⟩ => ⟨S100000x64, .f32⟩
  | .hbm, ⟨57, _⟩ => ⟨S1700000x1, .i32⟩
  | .hbm, ⟨58, _⟩ => ⟨S100000x64, .f32⟩
  | .hbm, ⟨59, _⟩ => ⟨S1x64, .f32⟩
  | .hbm, ⟨60, _⟩ => ⟨S100000x64, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S4000x1, .f32⟩
  | .local _ .vmem, ⟨4, _⟩ => ⟨S4000x1, .f32⟩
  | .local _ .vmem, ⟨5, _⟩ => ⟨S4000x128, .bf16⟩
  | .local _ .vmem, ⟨6, _⟩ => ⟨S4000x128, .bf16⟩
  | .local _ .vmem, ⟨7, _⟩ => ⟨S4000x128, .f32⟩
  | .local _ .vmem, ⟨8, _⟩ => ⟨S4000x128, .f32⟩
  | .local _ .vmem, ⟨9, _⟩ => ⟨S4000x1, .f32⟩
  | .local _ .vmem, ⟨10, _⟩ => ⟨S4000x1, .f32⟩
  | .local _ .vmem, ⟨11, _⟩ => ⟨S1x128, .f32⟩
  | .local _ .vmem, ⟨12, _⟩ => ⟨S128x64, .f32⟩
  | .local _ .vmem, ⟨13, _⟩ => ⟨S4000x64, .bf16⟩
  | .local _ .vmem, ⟨14, _⟩ => ⟨S4000x64, .bf16⟩
  | .local _ .vmem, ⟨15, _⟩ => ⟨S4000x64, .f32⟩
  | .local _ .vmem, ⟨16, _⟩ => ⟨S4000x64, .f32⟩
  | .local _ .vmem, ⟨17, _⟩ => ⟨S4000x1, .f32⟩
  | .local _ .vmem, ⟨18, _⟩ => ⟨S4000x1, .f32⟩
  | .local _ .vmem, ⟨19, _⟩ => ⟨S1x64, .f32⟩
  | .local _ .vmem, ⟨20, _⟩ => ⟨S4000x64, .f32⟩
  | .local _ .vmem, ⟨21, _⟩ => ⟨S4000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  packedbf16_S4000x128_S4000x128_0_0 : (Rect.unit (s := S4000x128) ![0, 0] S4000x128.size inb_S4000x128_S4000x128_0_0).PackedRows (EltTy.packing .bf16)
  bcast_S_S100000x128 : S_.BroadcastsInDim S100000x128 (![] : Fin 0 → Fin S100000x128.rank)
  shapeCasts_S128_S1x128 : S128.ShapeCasts S1x128
  shapeCasts_S4000x128_S4000x128 : S4000x128.ShapeCasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x64_S128x64_0_0 : ∀ a, (![0, 0] : Fin 2 → Nat) a + S128x64.size a ≤ S128x64.size a
  h_S128x64 : 0 < S128x64.numel
  broadcasts_S4000x1_S4000x64 : S4000x1.Broadcasts S4000x64
  inb_S4000x64_S4000x64_0_0 : ∀ a, (![0, 0] : Fin 2 → Nat) a + S4000x64.size a ≤ S4000x64.size a
  h_S4000x64 : 0 < S4000x64.numel
  packedbf16_S4000x64_S4000x64_0_0 : (Rect.unit (s := S4000x64) ![0, 0] S4000x64.size inb_S4000x64_S4000x64_0_0).PackedRows (EltTy.packing .bf16)
  bcast_S_S100000x64 : S_.BroadcastsInDim S100000x64 (![] : Fin 0 → Fin S100000x64.rank)
  shapeCasts_S64_S1x64 : S64.ShapeCasts S1x64
  shapeCasts_S4000x64_S4000x64 : S4000x64.ShapeCasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  scatter_S100000_S1700000x1_S1700000_n_0_0_1_wf : ScatterDims.WF S100000 S1700000x1 S1700000 [] [0] [0] 1
  dot_S4000x128_S128x128_S4000x128_1_0_0_1_n_n_wf : DotDims.WF S4000x128 S128x128 S4000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S4000x128_S128x64_S4000x64_1_0_0_1_n_n_wf : DotDims.WF S4000x128 S128x64 S4000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .bf16 = 32 ∨ (Rect.block (s := S100000x128) S4000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x64.size a ≤ S100000x64.size a
  hwx1_4 : ∀ i : grid1.Coords, EltTy.bits .bf16 = 32 ∨ (Rect.block (s := S100000x64) S4000x64.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S100000x1.size a
  hwx2_1 : ∀ i : grid2.Coords, EltTy.bits .f32 = 32 ∨ (Rect.block (s := S100000x1) S4000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x64.size a ≤ S100000x64.size a
  hwx2_3 : ∀ i : grid2.Coords, EltTy.bits .f32 = 32 ∨ (Rect.block (s := S100000x64) S4000x64.size (cc2_transform_3 i) (hinb2_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S4000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v40) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v41) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v42) S4000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 89
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x64, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x64, .f32⟩
  | .hbm, ⟨79, _⟩ => ⟨S1700000x1, .f32⟩
  | .hbm, ⟨80, _⟩ => ⟨S1700000x64, .f32⟩
  | .hbm, ⟨81, _⟩ => ⟨S1700000x64, .f32⟩
  | .hbm, ⟨82, _⟩ => ⟨S_, .f32⟩
  | .hbm, ⟨83, _⟩ => ⟨S100000x64, .f32⟩
  | .hbm, ⟨84, _⟩ => ⟨S1700000x1, .i32⟩
  | .hbm, ⟨85, _⟩ => ⟨S100000x64, .f32⟩
  | .hbm, ⟨86, _⟩ => ⟨S1x64, .f32⟩
  | .hbm, ⟨87, _⟩ => ⟨S100000x64, .f32⟩
  | .hbm, ⟨88, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.LibGcnDense.lean ====
/-
  The dense halves of a two-layer graph convolution, as whole-array functions on the extended reals.

  With `d` the nodes' normaliser laid out as a column `[N, 1]`:
  * `scaledProduct x w d` is the product `x · w` with row `n` multiplied by `d n`:
        entry (n, c) = (Σ_q x[n, q] · w[q, c]) · d[n];
  * `scaleBias a d b` multiplies row `n` of an aggregate `a` by `d n` and adds the bias row `b : [1, C]`:
        entry (n, c) = a[n, c] · d[n] + b[0, c];
  * `hidden a d b` is the rectified `scaleBias`: entry (n, c) = max (a[n, c] · d[n] + b[0, c]) 0;
  * `hiddenProduct a d b w` is the next layer's scaled product of the hidden rows: `scaledProduct (hidden a d b) w d`.
  An entry of each depends on row `n` of the matrix operands and on `d n` only.
-/
import Idealize.ShloMosaic.PureOps.Ideal
import Idealize.ShloMosaic.Lib.ValueIdx

noncomputable section

open scoped BigOperators

namespace Cert.Layers

open Idealize.ShloMosaic Idealize.ShloMosaic.ValueIdx

variable {N K C : Nat}

/-- The product `x · w`, row `n` scaled by `d n`. -/
def scaledProduct (x : (⟨2, ![N, K]⟩ : Shape).Idx → EReal) (w : (⟨2, ![K, C]⟩ : Shape).Idx → EReal)
    (d : (⟨2, ![N, 1]⟩ : Shape).Idx → EReal) : (⟨2, ![N, C]⟩ : Shape).Idx → EReal :=
  fun i => (∑ q : Fin K, x (ix2 (i 0) q) * w (ix2 q (i 1))) * d (ix2 (i 0) (0 : Fin 1))

theorem scaledProduct_apply (x : (⟨2, ![N, K]⟩ : Shape).Idx → EReal) (w : (⟨2, ![K, C]⟩ : Shape).Idx → EReal)
    (d : (⟨2, ![N, 1]⟩ : Shape).Idx → EReal) (n : Fin N) (c : Fin C) :
    scaledProduct x w d (ix2 n c) = (∑ q : Fin K, x (ix2 n q) * w (ix2 q c)) * d (ix2 n (0 : Fin 1)) := rfl

/-- Row `n` of the aggregate scaled by `d n`, plus the bias row. -/
def scaleBias (a : (⟨2, ![N, C]⟩ : Shape).Idx → EReal) (d : (⟨2, ![N, 1]⟩ : Shape).Idx → EReal)
    (b : (⟨2, ![1, C]⟩ : Shape).Idx → EReal) : (⟨2, ![N, C]⟩ : Shape).Idx → EReal :=
  fun i => a i * d (ix2 (i 0) (0 : Fin 1)) + b (ix2 (0 : Fin 1) (i 1))

theorem scaleBias_apply (a : (⟨2, ![N, C]⟩ : Shape).Idx → EReal) (d : (⟨2, ![N, 1]⟩ : Shape).Idx → EReal)
    (b : (⟨2, ![1, C]⟩ : Shape).Idx → EReal) (n : Fin N) (c : Fin C) :
    scaleBias a d b (ix2 n c) = a (ix2 n c) * d (ix2 n (0 : Fin 1)) + b (ix2 (0 : Fin 1) c) := rfl

/-- The rectified scaled-and-biased aggregate. -/
def hidden (a : (⟨2, ![N, C]⟩ : Shape).Idx → EReal) (d : (⟨2, ![N, 1]⟩ : Shape).Idx → EReal)
    (b : (⟨2, ![1, C]⟩ : Shape).Idx → EReal) : (⟨2, ![N, C]⟩ : Shape).Idx → EReal :=
  fun i => max (scaleBias a d b i) 0

theorem hidden_apply (a : (⟨2, ![N, C]⟩ : Shape).Idx → EReal) (d : (⟨2, ![N, 1]⟩ : Shape).Idx → EReal)
    (b : (⟨2, ![1, C]⟩ : Shape).Idx → EReal) (n : Fin N) (c : Fin C) :
    hidden a d b (ix2 n c) = max (a (ix2 n c) * d (ix2 n (0 : Fin 1)) + b (ix2 (0 : Fin 1) c)) 0 := rfl

/-- The next layer's scaled product of the hidden rows. -/
def hiddenProduct (a : (⟨2, ![N, K]⟩ : Shape).Idx → EReal) (d : (⟨2, ![N, 1]⟩ : Shape).Idx → EReal)
    (b : (⟨2, ![1, K]⟩ : Shape).Idx → EReal) (w : (⟨2, ![K, C]⟩ : Shape).Idx → EReal) :
    (⟨2, ![N, C]⟩ : Shape).Idx → EReal :=
  scaledProduct (hidden a d b) w d

end Cert.Layers

end
-- ==== Proof.KStages.lean ====
/-
  The kernel program's values as functions of its six arguments, one named stage per array the proof speaks about.

  The graph: `src` and `dst` are the edges' sources and targets (rows 0 and 1 of the edge list) followed by every
  node once (the self loops). `deg n` counts the edges into `n` (a scatter-add of ones into zeros), `dinv` is
  `1/√deg` where the degree is positive and `0` elsewhere, `dcol` is `dinv` laid out as a column. `srcIdx` are the
  sources with negative indices wrapped round, as a column of start indices; `dstIdx` the targets as a column.
  Layer 1: `hs1 = (x · W1) ⊙ dinv` by rows; `agg1` sums, into each target, the source rows of `hs1`.
  Layer 2: `hs2 = (max (agg1 ⊙ dinv + b1) 0 · W2) ⊙ dinv`; `agg2` sums the source rows of `hs2`;
  the result is `agg2 ⊙ dinv + b2`.
-/
import proofs.«172764_j27797028339956_2_alg».proof.KernelIdeal
import proofs.«172764_j27797028339956_2_alg».proof.Proof.Gen.KernelIdeal
import proofs.«172764_j27797028339956_2_alg».proof.Proof.LibGcnDense

noncomputable section

namespace Cert.KernelIdeal.Stage

open Cert.KernelIdeal Cert.KernelIdeal.Facts₀ Idealize.ShloMosaic

/-- The edges' sources, then every node. -/
def src (ei : IVec S2x1600000 32) : IVec S1700000 32 :=
  concatenate S1700000 0 [⟨S1600000, shapeCast S1600000 (extractStridedSlice S1x1600000 ![0, 0] ei slices_S2x1600000_S1x1600000_0_0) shapeCasts_S1x1600000_S1600000⟩, ⟨S100000, iotaInDim S100000 32 0⟩] concatenates_S1600000_S100000_S1700000_d0

/-- The edges' targets, then every node. -/
def dst (ei : IVec S2x1600000 32) : IVec S1700000 32 :=
  concatenate S1700000 0 [⟨S1600000, shapeCast S1600000 (extractStridedSlice S1x1600000 ![1, 0] ei slices_S2x1600000_S1x1600000_1_0) shapeCasts_S1x1600000_S1600000⟩, ⟨S100000, iotaInDim S100000 32 0⟩] concatenates_S1600000_S100000_S1700000_d0

/-- The targets as a column of scatter indices. -/
def dstIdx (ei : IVec S2x1600000 32) : IVec S1700000x1 32 :=
  broadcastInDim S1700000x1 ![0] bcast_S1700000_S1700000x1_0 (dst ei)

/-- The sources, negative indices wrapped round, as a column of gather start indices. -/
def srcIdx (ei : IVec S2x1600000 32) : IVec S1700000x1 32 :=
  broadcastInDim S1700000x1 ![0] bcast_S1700000_S1700000x1_0
    (select (cmpi .slt (src ei) (broadcastInDim S1700000 ![] bcast_S_S1700000 (constantI S_ 32 0#32)))
      (addi (src ei) (broadcastInDim S1700000 ![] bcast_S_S1700000 (constantI S_ 32 100000#32))) (src ei))

/-- The number of edges into each node. -/
def deg (ei : IVec S2x1600000 32) : FVec Ideal S100000 .f32 :=
  Host.scatterAdd scatter_S100000_S1700000x1_S1700000_n_0_0_1
    (broadcastInDim S100000 ![] bcast_S_S100000 (constant S_ .f32 0x00000000#32)) (dstIdx ei)
    (broadcastInDim S1700000 ![] bcast_S_S1700000 (constant S_ .f32 0x3F800000#32))

/-- The normaliser: the reciprocal square root of a positive degree, zero elsewhere. -/
def dinv (ei : IVec S2x1600000 32) : FVec Ideal S100000 .f32 :=
  select (cmpf (F := Ideal) .ogt (deg ei) (broadcastInDim S100000 ![] bcast_S_S100000 (constant S_ .f32 0x00000000#32)))
    (Host.rsqrt (deg ei)) (broadcastInDim S100000 ![] bcast_S_S100000 (constant S_ .f32 0x00000000#32))

/-- The normaliser as a column. -/
def dcol (ei : IVec S2x1600000 32) : FVec Ideal S100000x1 .f32 :=
  shapeCast S100000x1 (dinv ei) shapeCasts_S100000_S100000x1

/-- Layer 1's transformed rows, each scaled by its node's normaliser. -/
def hs1 (x : FVec Ideal S100000x128 .f32) (ei : IVec S2x1600000 32) (W1 : FVec Ideal S128x128 .f32) :
    FVec Ideal S100000x128 .bf16 :=
  Layers.scaledProduct (N := 100000) (K := 128) (C := 128) x W1 (dcol ei)

/-- Layer 1's aggregate: into each target the sum of its edges' source rows. -/
def agg1 (x : FVec Ideal S100000x128 .f32) (ei : IVec S2x1600000 32) (W1 : FVec Ideal S128x128 .f32) :
    FVec Ideal S100000x128 .f32 :=
  Host.scatterAdd scatter_S100000x128_S1700000x1_S1700000x128_1_0_0_1
    (broadcastInDim S100000x128 ![] bcast_S_S100000x128 (constant S_ .f32 0x00000000#32)) (dstIdx ei)
    (extf .f32 (Host.gather gather_S100000x128_S1700000x1_S1700000x128_1_0_n_n_0_1_1128 (hs1 x ei W1) (srcIdx ei)) bitsLt_bf16_f32)

/-- Layer 2's transformed rows of the rectified layer-1 output, each scaled by its node's normaliser. -/
def hs2 (x : FVec Ideal S100000x128 .f32) (ei : IVec S2x1600000 32) (W1 : FVec Ideal S128x128 .f32)
    (b1 : FVec Ideal S128 .f32) (W2 : FVec Ideal S128x64 .f32) : FVec Ideal S100000x64 .bf16 :=
  Layers.hiddenProduct (N := 100000) (K := 128) (C := 64) (agg1 x ei W1) (dcol ei) (shapeCast S1x128 b1 shapeCasts_S128_S1x128) W2

/-- Layer 2's aggregate. -/
def agg2 (x : FVec Ideal S100000x128 .f32) (ei : IVec S2x1600000 32) (W1 : FVec Ideal S128x128 .f32)
    (b1 : FVec Ideal S128 .f32) (W2 : FVec Ideal S128x64 .f32) : FVec Ideal S100000x64 .f32 :=
  Host.scatterAdd scatter_S100000x64_S1700000x1_S1700000x64_1_0_0_1
    (broadcastInDim S100000x64 ![] bcast_S_S100000x64 (constant S_ .f32 0x00000000#32)) (dstIdx ei)
    (extf .f32 (Host.gather gather_S100000x64_S1700000x1_S1700000x64_1_0_n_n_0_1_164 (hs2 x ei W1 b1 W2) (srcIdx ei)) bitsLt_bf16_f32)

/-- The kernel program's result. -/
def out (x : FVec Ideal S100000x128 .f32) (ei : IVec S2x1600000 32) (W1 : FVec Ideal S128x128 .f32)
    (b1 : FVec Ideal S128 .f32) (W2 : FVec Ideal S128x64 .f32) (b2 : FVec Ideal S64 .f32) : FVec Ideal S100000x64 .f32 :=
  Layers.scaleBias (N := 100000) (C := 64) (agg2 x ei W1 b1 W2) (dcol ei) (shapeCast S1x64 b2 shapeCasts_S64_S1x64)

end Cert.KernelIdeal.Stage

end
-- ==== Proof.LibHostWalk.lean ====
/-
  Reading a buffer through a straight line of host operations: each operation's result at its own result buffer is
  its function of its operands' contents, and any other buffer keeps what it held. One pass rewrites a read at the end
  of the line into the composed term of the contents the line started from. A two-piece concatenation is restated
  with its two pieces as plain arguments, so that the pass also rewrites the reads inside the pieces.
-/
import Idealize.ShloMosaic.Lib.StableHlo.Run

set_option maxRecDepth 16384

noncomputable section

namespace Cert.HostWalk

open Idealize.ShloMosaic Idealize.ShloMosaic.StableHlo

/-- The concatenation of two pieces along an axis, the pieces as arguments. -/
def cat2 {α : Type} (t : Shape) (a : Fin t.rank) (s₁ s₂ : Shape) (x₁ : s₁.Idx → α) (x₂ : s₂.Idx → α)
    (h : Shape.Concatenates [s₁, s₂] t a) : t.Idx → α :=
  concatenate t a [⟨s₁, x₁⟩, ⟨s₂, x₂⟩] h

theorem concatenate_pair {α : Type} (t : Shape) (a : Fin t.rank) (s₁ s₂ : Shape) (x₁ : s₁.Idx → α) (x₂ : s₂.Idx → α)
    (h : Shape.Concatenates [s₁, s₂] t a) :
    concatenate t a [⟨s₁, x₁⟩, ⟨s₂, x₂⟩] h = cat2 t a s₁ s₂ x₁ x₂ h := rfl

/-- Reads a buffer through the fold of a line of host operations (and through whatever further rewriting rules are
    given for the boundaries between lines). -/
macro "walk_back" "[" ls:Lean.Parser.Tactic.simpLemma,* "]" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      TRef.nullary, TRef.unary, TRef.binary, TRef.ternary, TRef.quaternary, TRef.reshape, TRef.toBuf, TRef.ofBuf, TRef.of, cast_eq,
      concatenate_pair, $ls,*]))

end Cert.HostWalk

end
-- ==== Proof.HostWalk.lean ====
/-
  The kernel program's buffers at the boundaries of its three pipelined calls, as functions of the arguments.

  The run's final contents are a fold through @main from the launch memory: a stretch of host operations applies
  its operations, a pipelined call leaves each of its arrays at what its write-backs leave and every other buffer
  alone. Walking that fold back from the result: the third call's output array is its closed form of the arrays it
  entered with; those are the second aggregate (the host's gather and scatter-add of the second call's output), the
  normaliser column and the second bias row; and so on back to the launch memory. Each call's closed form — its
  output array as one whole-array function of the arrays it entered with — is a hypothesis here (`h0`, `h1`, `h2`).
  The conclusion: the result array holds `Stage.out` of the six argument arrays.
-/
import proofs.«172764_j27797028339956_2_alg».proof.Proof.Gen.KernelIdeal.Frame
import proofs.«172764_j27797028339956_2_alg».proof.Proof.KStages
import proofs.«172764_j27797028339956_2_alg».proof.Proof.LibHostWalk

set_option maxRecDepth 16384

noncomputable section

namespace Cert.KernelIdeal.Walk

open Cert.KernelIdeal Cert.KernelIdeal.Gen
open Idealize.ShloMosaic Idealize.ShloMosaic.TcCoe Idealize.SL.Sem Idealize.ShloMosaic.StableHlo
open Cert.HostWalk

variable (m : (ℓ : Loc nD τ sig) → Buf (Elt Ideal) ℓ) (ρ : Dev nD → PrngReg) (c : Dev nD)

/-- The six argument arrays as launched. -/
abbrev arg0 : FVec Ideal S100000x128 .f32 := m ((c.tc : Thread nD τ).loc main_arg0)
abbrev arg1 : IVec S2x1600000 32 := m ((c.tc : Thread nD τ).loc main_arg1)
abbrev arg2 : FVec Ideal S128x128 .f32 := m ((c.tc : Thread nD τ).loc main_arg2)
abbrev arg3 : FVec Ideal S128 .f32 := m ((c.tc : Thread nD τ).loc main_arg3)
abbrev arg4 : FVec Ideal S128x64 .f32 := m ((c.tc : Thread nD τ).loc main_arg4)
abbrev arg5 : FVec Ideal S64 .f32 := m ((c.tc : Thread nD τ).loc main_arg5)

/-! ## Entering the first call: the graph's index vectors, the normaliser column, the arguments -/

theorem W3_v15 : W3 m ρ c (Proc.devRef .tc main_v15) = Stage.dcol (arg1 m c) := by
  show StableHlo.after hostOps0_2 (StableHlo.after hostOps0_1 (StableHlo.after hostOps0 (W0 m ρ c))) (Proc.devRef .tc main_v15) = _
  walk_back []
  rfl

theorem W3_v3 : W3 m ρ c (Proc.devRef .tc main_v3) = Stage.src (arg1 m c) := by
  show StableHlo.after hostOps0_2 (StableHlo.after hostOps0_1 (StableHlo.after hostOps0 (W0 m ρ c))) (Proc.devRef .tc main_v3) = _
  walk_back []
  rfl

theorem W3_v6 : W3 m ρ c (Proc.devRef .tc main_v6) = Stage.dst (arg1 m c) := by
  show StableHlo.after hostOps0_2 (StableHlo.after hostOps0_1 (StableHlo.after hostOps0 (W0 m ρ c))) (Proc.devRef .tc main_v6) = _
  walk_back []
  rfl

theorem W3_arg0 : W3 m ρ c (Proc.devRef .tc main_arg0) = arg0 m c := by
  show StableHlo.after hostOps0_2 (StableHlo.after hostOps0_1 (StableHlo.after hostOps0 (W0 m ρ c))) (Proc.devRef .tc main_arg0) = _
  walk_back []

theorem W3_arg2 : W3 m ρ c (Proc.devRef .tc main_arg2) = arg2 m c := by
  show StableHlo.after hostOps0_2 (StableHlo.after hostOps0_1 (StableHlo.after hostOps0 (W0 m ρ c))) (Proc.devRef .tc main_arg2) = _
  walk_back []

theorem W3_arg3 : W3 m ρ c (Proc.devRef .tc main_arg3) = arg3 m c := by
  show StableHlo.after hostOps0_2 (StableHlo.after hostOps0_1 (StableHlo.after hostOps0 (W0 m ρ c))) (Proc.devRef .tc main_arg3) = _
  walk_back []

theorem W3_arg4 : W3 m ρ c (Proc.devRef .tc main_arg4) = arg4 m c := by
  show StableHlo.after hostOps0_2 (StableHlo.after hostOps0_1 (StableHlo.after hostOps0 (W0 m ρ c))) (Proc.devRef .tc main_arg4) = _
  walk_back []

theorem W3_arg5 : W3 m ρ c (Proc.devRef .tc main_arg5) = arg5 m c := by
  show StableHlo.after hostOps0_2 (StableHlo.after hostOps0_1 (StableHlo.after hostOps0 (W0 m ρ c))) (Proc.devRef .tc main_arg5) = _
  walk_back []

/-! ## The three calls' closed forms, as hypotheses -/

/-- The first call leaves its output array at the scaled product of the arrays it entered with. -/
abbrev Closed0 : Prop := ∀ (V : (c : Dev nD) → (b : Ref sig .tc) → Buf (Elt Ideal) ((c : Thread nD τ).loc b)) (c : Dev nD),
  (dat0 (F := Ideal) V c).arrAt 3 cfg0.N
    = Layers.scaledProduct (N := 100000) (K := 128) (C := 128) (V c main_arg0) (V c main_arg2) (V c main_v15)

/-- The second call leaves its output array at the scaled product of the rectified, scaled and biased aggregate. -/
abbrev Closed1 : Prop := ∀ (V : (c : Dev nD) → (b : Ref sig .tc) → Buf (Elt Ideal) ((c : Thread nD τ).loc b)) (c : Dev nD),
  (dat1 (F := Ideal) V c).arrAt 4 cfg1.N
    = Layers.hiddenProduct (N := 100000) (K := 128) (C := 64) (V c main_v27) (V c main_v15) (V c main_v28) (V c main_arg4)

/-- The third call leaves its output array at the scaled and biased aggregate. -/
abbrev Closed2 : Prop := ∀ (V : (c : Dev nD) → (b : Ref sig .tc) → Buf (Elt Ideal) ((c : Thread nD τ).loc b)) (c : Dev nD),
  (dat2 (F := Ideal) V c).arrAt 3 cfg2.N
    = Layers.scaleBias (N := 100000) (C := 64) (V c main_v40) (V c main_v15) (V c main_v41)

variable (h0 : Closed0) (h1 : Closed1) (h2 : Closed2)

/-! ## Leaving the first call -/

include h0 in
theorem W4_v16 : W4 m ρ c (Proc.devRef .tc main_v16) = Stage.hs1 (arg0 m c) (arg1 m c) (arg2 m c) := by
  refine (W4_arr m ρ c 3).trans ((h0 (V3 m ρ) c).trans ?_)
  show Layers.scaledProduct (N := 100000) (K := 128) (C := 128) (W3 m ρ c (Proc.devRef .tc main_arg0))
    (W3 m ρ c (Proc.devRef .tc main_arg2)) (W3 m ρ c (Proc.devRef .tc main_v15)) = _
  rw [W3_arg0, W3_arg2, W3_v15]
  rfl

theorem W4_v15 : W4 m ρ c (Proc.devRef .tc main_v15) = Stage.dcol (arg1 m c) :=
  (W4_arr m ρ c 2).trans (((dat0 (V3 m ρ) c).arrAt_in 2 rfl _).trans ((A_eq0 (V3 m ρ) c 2).trans (W3_v15 m ρ c)))

theorem W4_v3 : W4 m ρ c (Proc.devRef .tc main_v3) = Stage.src (arg1 m c) :=
  (W4_of_ne m ρ c main_v3 (by decide)).trans (W3_v3 m ρ c)
theorem W4_v6 : W4 m ρ c (Proc.devRef .tc main_v6) = Stage.dst (arg1 m c) :=
  (W4_of_ne m ρ c main_v6 (by decide)).trans (W3_v6 m ρ c)
theorem W4_arg3 : W4 m ρ c (Proc.devRef .tc main_arg3) = arg3 m c :=
  (W4_of_ne m ρ c main_arg3 (by decide)).trans (W3_arg3 m ρ c)
theorem W4_arg4 : W4 m ρ c (Proc.devRef .tc main_arg4) = arg4 m c :=
  (W4_of_ne m ρ c main_arg4 (by decide)).trans (W3_arg4 m ρ c)
theorem W4_arg5 : W4 m ρ c (Proc.devRef .tc main_arg5) = arg5 m c :=
  (W4_of_ne m ρ c main_arg5 (by decide)).trans (W3_arg5 m ρ c)

/-! ## Entering the second call: the first aggregate, the normaliser column, the first bias row, the second weights -/

include h0 in
theorem W5_v27 : W5 m ρ c (Proc.devRef .tc main_v27) = Stage.agg1 (arg0 m c) (arg1 m c) (arg2 m c) := by
  show StableHlo.after hostOps1 (W4 m ρ c) (Proc.devRef .tc main_v27) = _
  walk_back []
  rw [W4_v6, W4_v16 m ρ c h0, W4_v3]
  rfl

theorem W5_v15 : W5 m ρ c (Proc.devRef .tc main_v15) = Stage.dcol (arg1 m c) := by
  show StableHlo.after hostOps1 (W4 m ρ c) (Proc.devRef .tc main_v15) = _
  walk_back []
  exact W4_v15 m ρ c

theorem W5_v28 : W5 m ρ c (Proc.devRef .tc main_v28) = shapeCast S1x128 (arg3 m c) Facts₀.shapeCasts_S128_S1x128 := by
  show StableHlo.after hostOps1 (W4 m ρ c) (Proc.devRef .tc main_v28) = _
  walk_back []
  rw [W4_arg3]
  rfl

theorem W5_arg4 : W5 m ρ c (Proc.devRef .tc main_arg4) = arg4 m c := by
  show StableHlo.after hostOps1 (W4 m ρ c) (Proc.devRef .tc main_arg4) = _
  walk_back []
  exact W4_arg4 m ρ c

theorem W5_v3 : W5 m ρ c (Proc.devRef .tc main_v3) = Stage.src (arg1 m c) := by
  show StableHlo.after hostOps1 (W4 m ρ c) (Proc.devRef .tc main_v3) = _
  walk_back []
  exact W4_v3 m ρ c

theorem W5_v6 : W5 m ρ c (Proc.devRef .tc main_v6) = Stage.dst (arg1 m c) := by
  show StableHlo.after hostOps1 (W4 m ρ c) (Proc.devRef .tc main_v6) = _
  walk_back []
  exact W4_v6 m ρ c

theorem W5_arg5 : W5 m ρ c (Proc.devRef .tc main_arg5) = arg5 m c := by
  show StableHlo.after hostOps1 (W4 m ρ c) (Proc.devRef .tc main_arg5) = _
  walk_back []
  exact W4_arg5 m ρ c

/-! ## Leaving the second call -/

include h0 h1 in
theorem W6_v29 : W6 m ρ c (Proc.devRef .tc main_v29)
    = Stage.hs2 (arg0 m c) (arg1 m c) (arg2 m c) (arg3 m c) (arg4 m c) := by
  refine (W6_arr m ρ c 4).trans ((h1 (V5 m ρ) c).trans ?_)
  show Layers.hiddenProduct (N := 100000) (K := 128) (C := 64) (W5 m ρ c (Proc.devRef .tc main_v27))
    (W5 m ρ c (Proc.devRef .tc main_v15)) (W5 m ρ c (Proc.devRef .tc main_v28)) (W5 m ρ c (Proc.devRef .tc main_arg4)) = _
  rw [W5_v27 m ρ c h0, W5_v15, W5_v28, W5_arg4]
  rfl

theorem W6_v15 : W6 m ρ c (Proc.devRef .tc main_v15) = Stage.dcol (arg1 m c) :=
  (W6_arr m ρ c 1).trans (((dat1 (V5 m ρ) c).arrAt_in 1 rfl _).trans ((A_eq1 (V5 m ρ) c 1).trans (W5_v15 m ρ c)))

theorem W6_v3 : W6 m ρ c (Proc.devRef .tc main_v3) = Stage.src (arg1 m c) :=
  (W6_of_ne m ρ c main_v3 (by decide)).trans (W5_v3 m ρ c)
theorem W6_v6 : W6 m ρ c (Proc.devRef .tc main_v6) = Stage.dst (arg1 m c) :=
  (W6_of_ne m ρ c main_v6 (by decide)).trans (W5_v6 m ρ c)
theorem W6_arg5 : W6 m ρ c (Proc.devRef .tc main_arg5) = arg5 m c :=
  (W6_of_ne m ρ c main_arg5 (by decide)).trans (W5_arg5 m ρ c)

/-! ## Entering the third call: the second aggregate, the normaliser column, the second bias row -/

include h0 h1 in
theorem W7_v40 : W7 m ρ c (Proc.devRef .tc main_v40)
    = Stage.agg2 (arg0 m c) (arg1 m c) (arg2 m c) (arg3 m c) (arg4 m c) := by
  show StableHlo.after hostOps2 (W6 m ρ c) (Proc.devRef .tc main_v40) = _
  walk_back []
  rw [W6_v6, W6_v29 m ρ c h0 h1, W6_v3]
  rfl

theorem W7_v15 : W7 m ρ c (Proc.devRef .tc main_v15) = Stage.dcol (arg1 m c) := by
  show StableHlo.after hostOps2 (W6 m ρ c) (Proc.devRef .tc main_v15) = _
  walk_back []
  exact W6_v15 m ρ c

theorem W7_v41 : W7 m ρ c (Proc.devRef .tc main_v41) = shapeCast S1x64 (arg5 m c) Facts₀.shapeCasts_S64_S1x64 := by
  show StableHlo.after hostOps2 (W6 m ρ c) (Proc.devRef .tc main_v41) = _
  walk_back []
  rw [W6_arg5]
  rfl

/-! ## The result -/

include h0 h1 h2 in
/-- The result array at the end of the run is `Stage.out` of the argument arrays as launched. -/
theorem W8_v42 : W8 m ρ c (Proc.devRef .tc main_v42)
    = Stage.out (arg0 m c) (arg1 m c) (arg2 m c) (arg3 m c) (arg4 m c) (arg5 m c) := by
  refine (W8_arr m ρ c 3).trans ((h2 (V7 m ρ) c).trans ?_)
  show Layers.scaleBias (N := 100000) (C := 64) (W7 m ρ c (Proc.devRef .tc main_v40))
    (W7 m ρ c (Proc.devRef .tc main_v15)) (W7 m ρ c (Proc.devRef .tc main_v41)) = _
  rw [W7_v40 m ρ c h0 h1, W7_v15, W7_v41]
  rfl

end Cert.KernelIdeal.Walk

end
-- ==== Proof.LibColumn.lean ====
/-
  A vector as a column. A length-`a` vector reshaped to `[a, 1]` reads, at `(i, 0)`, the vector at `i`; and an
  `[a, 1]` column broadcast across `b` columns reads, at `(p, c)`, the column at `(p, 0)`. (The companions for
  a row `[1, a]` are the library's.)
-/
import Idealize.ShloMosaic.Lib.ValueLayout
import Idealize.ShloMosaic.Lib.Pipeline.Value

noncomputable section

namespace Cert.Column

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Column

end
-- ==== Proof.LibPlainDot.lean ====
/-
  A plain matrix product read at an index, on the extended reals.

  For dimension numbers that contract the left operand's second axis against the right operand's
  first, with no batch axes (an `M×K` matrix times a `K×N` matrix), entry `(p, c)` of the product is
  `Σ_{q < K} l[p, q] · r[q, c]`. The library states a product as a sum over the contraction shape's
  multi-indices; here that sum is re-indexed by the one contracted coordinate, once, for every record
  of this form and every extent.
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat} (d : DotDims ⟨2, ![M, K]⟩ ⟨2, ![K, N]⟩ ⟨2, ![M, N]⟩)

/-- The dimension numbers of a plain product: contract left axis 1 with right axis 0, keep left axis 0 and
    right axis 1 in that order, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

/-- The contraction shape has one axis. -/
theorem contr_rank (h : IsPlain d) : d.contr.rank = 1 := by rw [d.rank_contr, h.lc]; rfl

/-- That axis has the shared extent `K`. -/
theorem contr_size (h : IsPlain d) : d.contr.size ⟨0, by rw [contr_rank h]; exact Nat.one_pos⟩ = K := by
  rw [d.size_contr 0 (by rw [h.lc]; exact Nat.one_pos), List.getElem_of_eq h.lc]
  rfl

/-- A coordinate of an index depends only on the axis number. -/
private theorem coord_congr {s : Shape} (j : s.Idx) (p q : Nat) (hp : p < s.rank) (hq : q < s.rank) (e : p = q) :
    (j ⟨p, hp⟩).val = (j ⟨q, hq⟩).val := by subst e; rfl

/-- The left operand is read at the result's row. -/
theorem lhs_row (h : IsPlain d) (j : (⟨2, ![M, N]⟩ : Shape).Idx) (k : d.contr.Idx) : (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by rw [h.lb, h.ln]; rfl)

/-- The right operand is read at the result's column. -/
theorem rhs_col (h : IsPlain d) (j : (⟨2, ![M, N]⟩ : Shape).Idx) (k : d.contr.Idx) : (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by rw [h.lb, h.ln, h.rn]; rfl)

/-- The library's sum over contraction multi-indices is the sum over the contracted coordinate. -/
theorem sum_contr (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ q : Fin K, l (ix2 (j 0) q) * r (ix2 q (j 1)) := by
  have hr : d.contr.rank = 1 := contr_rank h
  have hs : d.contr.size ⟨0, by omega⟩ = K := contr_size h
  rw [← Equiv.sum_comp (contrEquiv1 d K hr hs).symm]
  refine Finset.sum_congr rfl fun q _ => ?_
  have hq := contrEquiv1_symm_val d K hr hs q
  have el : d.lhsIdx j ((contrEquiv1 d K hr hs).symm q) = ix2 (j 0) q := funext fun a => Fin.ext (by
    match a with
    | ⟨0, _⟩ => exact lhs_row h j _
    | ⟨1, _⟩ => exact (d.lhsIdx_val_of_single h.lc j _).trans hq)
  have er : d.rhsIdx j ((contrEquiv1 d K hr hs).symm q) = ix2 q (j 1) := funext fun a => Fin.ext (by
    match a with
    | ⟨0, _⟩ => exact (d.rhsIdx_val_of_single h.rc j _).trans hq
    | ⟨1, _⟩ => exact rhs_col h j _)
  rw [el, er]
  rfl

/-- A `tpu.matmul` into a zero accumulator, at entry `(p, c)`. -/
theorem matmul_zero_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ q : Fin K, l (ix2 p q) * r (ix2 q c) :=
  (Ideal.matmul_constant_zero_apply d prec l r (ix2 p c)).trans (sum_contr h l r (ix2 p c))

/-- The host's `dot_general`, at entry `(p, c)`. -/
theorem dotGeneral_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    Host.dotGeneral d prec l r (ix2 p c) = ∑ q : Fin K, l (ix2 p q) * r (ix2 q c) :=
  (Ideal.dotGeneral_apply d prec .single l r (ix2 p c)).trans (sum_contr h l r (ix2 p c))

end Cert.PlainDot

end
-- ==== Proof.Region0.lean ====
/-
  The first pipelined call, read as one whole-array function.

  The call walks the 100000 rows of the node features in 25 steps of 4000 rows. At step `t` it holds rows
  `4000 t … 4000 t + 3999` of the features `x : [100000, 128]` and of the normaliser column `d : [100000, 1]`, and
  the whole weight matrix `w : [128, 128]`; it multiplies the held rows of `x` by `w`, multiplies each row of the
  product by that row's entry of `d`, and writes the 4000 rows back to the same rows of the result. An entry
  `(n, l)` of the result therefore depends only on row `n` of `x`, column `l` of `w` and `d[n, 0]`:
        result[n, l] = (Σ_q x[n, q] · w[q, l]) · d[n, 0],
  which is `Cert.Layers.scaledProduct x w d`. On extended reals the changes of number format on the way into and out
  of the product are the identity, and a product accumulated from zero is the plain sum. Three things are shown,
  for arbitrary contents of the buffers when the call is entered:
  * one step's arithmetic at a position `(p, l)` of its block (`scaledProductBlock_apply`);
  * the three held blocks, read where that arithmetic reads them, are the arrays at row `4000 t + p`, so that what
    step `t` writes back is block `t` of `scaledProduct x w d` (`blockReads0`, `flushed0_eq`);
  * the 25 blocks tile the result — row `r` lies in block `r / 4000` — so the result array ends as
    `scaledProduct x w d`, whole (`covered0`, `final0`).
-/
import proofs.«172764_j27797028339956_2_alg».proof.Proof.Gen.KernelIdeal.Frame
import proofs.«172764_j27797028339956_2_alg».proof.Proof.LibGcnDense
import proofs.«172764_j27797028339956_2_alg».proof.Proof.LibColumn
import proofs.«172764_j27797028339956_2_alg».proof.Proof.LibPlainDot
import proofs.«172764_j27797028339956_2_alg».proof.Proof.HostWalk
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Regions

open Cert.KernelIdeal Idealize.ShloMosaic Idealize.ShloMosaic.TcCoe Idealize.SL.Sem
open Idealize.ShloMosaic.ValueIdx
open Idealize.ShloMosaic.Pipeline (Dat)
open scoped BigOperators

/-- The offsets of a rectangle that starts at the origin, spelt as the constant zero function. -/
theorem origin0 : (![0, 0] : Fin 2 → Nat) = fun _ => 0 := funext fun a => by fin_cases a <;> rfl

/-! ## One step's arithmetic at one position -/

/-- Position `(p, l)` of what one step stores: row `p` of the held feature rows against column `l` of the weights,
    summed over the 128 shared coordinates, times the normaliser's entry of row `p`. (The changes of number format
    are the identity on extended reals; the product accumulates from zero; the normaliser's one column is repeated
    across the lanes.) -/
theorem scaledProductBlock_apply (x0 : Vec Ideal S4000x128 .f32) (x1 : Vec Ideal S128x128 .f32) (x2 : Vec Ideal S4000x1 .f32)
    (p : Fin 4000) (l : Fin 128) :
    Gen.k0_pay1 x0 x1 x2 (ix2 p l) = (∑ q : Fin 128, x0 (ix2 p q) * x1 (ix2 q l)) * x2 (ix2 p (0 : Fin 1)) := by
  unfold Gen.k0_pay1
  simp only [shapeCast_self]
  show matmul dot_S4000x128_S128x128_S4000x128_1_0_0_1_n_n none (truncf .bf16 x0 _) (truncf .bf16 x1 _)
        (constant (F := Ideal) S4000x128 .f32 0x00000000#32) (ix2 p l) * broadcastTo S4000x128 x2 _ (ix2 p l) = _
  rw [Cert.Column.broadcastTo_a1_ab_apply]
  refine congrArg (· * x2 (ix2 p (0 : Fin 1))) ?_
  refine (Cert.PlainDot.matmul_zero_apply ⟨rfl, rfl, rfl, rfl, rfl, rfl⟩ none _ _ p l).trans ?_
  rfl

/-! ## Which block each window holds at a step -/

/-- At step `t` the features', the normaliser's and the result's windows hold row block `t` (their one column
    block); the weights' window holds its only block. There are 25 steps. -/
theorem blockIndex0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 ∧ t.val < 25 :=
  (by decide +kernel : ∀ t : Fin grid0.N, _)

/-- The three input blocks of step `t`, read at the positions the arithmetic uses for `(p, l)`, are the arrays read at
    row `4000 t + p`: the features along that row, the weights down column `l`, the normaliser at its one column. That
    is the scaled product at the position of the result where step `t`'s block puts `(p, l)`. -/
theorem blockReads0 (X : S100000x128.Idx → EReal) (W : S128x128.Idx → EReal) (D : S100000x1.Idx → EReal)
    (t : Fin cfg0.N) (p : Fin 4000) (l : Fin 128) :
    (∑ q : Fin 128, X (((cfg0.win 0).blk t).view.emb (ix2 p q)) * W (((cfg0.win 1).blk t).view.emb (ix2 q l)))
        * D (((cfg0.win 2).blk t).view.emb (ix2 p (0 : Fin 1)))
      = Cert.Layers.scaledProduct (N := 100000) (K := 128) (C := 128) X W D (((cfg0.win 3).blk t).view.emb (ix2 p l)) := by
  obtain ⟨x0, x1, w0, w1, d0, d1, o0, o1, -⟩ := blockIndex0 t
  have e0 : ∀ q : Fin 128, ((cfg0.win 0).blk t).view.emb (ix2 p q)
      = ix2 ((((cfg0.win 3).blk t).view.emb (ix2 p l)) 0) q := fun q => by
    funext a; apply Fin.ext
    match a with
    | ⟨0, _⟩ => show win0_0.index t (0 : Fin 2) * 4000 + 1 * p.val = win0_3.index t (0 : Fin 2) * 4000 + 1 * p.val; omega
    | ⟨1, _⟩ => show win0_0.index t (1 : Fin 2) * 128 + 1 * q.val = q.val; omega
  have e1 : ∀ q : Fin 128, ((cfg0.win 1).blk t).view.emb (ix2 q l)
      = ix2 q ((((cfg0.win 3).blk t).view.emb (ix2 p l)) 1) := fun q => by
    funext a; apply Fin.ext
    match a with
    | ⟨0, _⟩ => show win0_1.index t (0 : Fin 2) * 128 + 1 * q.val = q.val; omega
    | ⟨1, _⟩ => show win0_1.index t (1 : Fin 2) * 128 + 1 * l.val = win0_3.index t (1 : Fin 2) * 128 + 1 * l.val; omega
  have e2 : ((cfg0.win 2).blk t).view.emb (ix2 p (0 : Fin 1))
      = ix2 ((((cfg0.win 3).blk t).view.emb (ix2 p l)) 0) (0 : Fin 1) := by
    funext a; apply Fin.ext
    match a with
    | ⟨0, _⟩ => show win0_2.index t (0 : Fin 2) * 4000 + 1 * p.val = win0_3.index t (0 : Fin 2) * 4000 + 1 * p.val; omega
    | ⟨1, _⟩ => show win0_2.index t (1 : Fin 2) * 1 + 1 * 0 = 0; omega
  rw [e2]
  refine congrArg (· * D _) (Finset.sum_congr rfl fun q _ => ?_)
  rw [e0 q, e1 q]
  rfl

section
variable (V : (c : Dev nD) → (b : Ref sig .tc) → Buf (Elt Ideal) ((c : Thread nD τ).loc b)) (c : Dev nD)

/-- What step `t` writes back is row block `t` of the scaled product. -/
theorem flushed0_eq (t : Fin cfg0.N) :
    (Gen.dat0 (F := Ideal) V c).flushed 3 t = ((cfg0.win 3).blk t).view.read (Elt Ideal)
      (Cert.Layers.scaledProduct (N := 100000) (K := 128) (C := 128) (V c main_arg0) (V c main_arg2) (V c main_v15)) := by
  show (cfg0.win 3).cut (grid0.coords t) ((Gen.dat0 V c).after 3 t) = _
  rw [Gen.after0_3]
  unfold Gen.out0_3
  rw [View.canon_unit_zero origin0]
  simp only [View.ld_unit_zero (S := S4000x128) origin0, View.ld_unit_zero (S := S128x128) origin0,
    View.ld_unit_zero (S := S4000x1) origin0]
  refine funext fun (j : S4000x128.Idx) => ?_
  obtain ⟨p, l, rfl⟩ : ∃ (p : Fin 4000) (l : Fin 128), j = ix2 p l := ⟨j 0, j 1, eq_ix2 j⟩
  show Gen.k0_pay1 (Gen.iblk0 V c 0 t) (Gen.iblk0 V c 1 t) (Gen.iblk0 V c 2 t) (ix2 p l)
      = Cert.Layers.scaledProduct (N := 100000) (K := 128) (C := 128) (V c main_arg0) (V c main_arg2) (V c main_v15)
          (((cfg0.win 3).blk t).view.emb (ix2 p l))
  rw [scaledProductBlock_apply]
  exact blockReads0 (V c main_arg0) (V c main_arg2) (V c main_v15) t p l

end

/-- A position of the result lies in step `t`'s block exactly when, on each axis, its coordinate lies in the block's
    range there. -/
theorem mem_block0 (t : Fin cfg0.N) (i : S100000x128.Idx) :
    i ∈ ((cfg0.win 3).blk t).view.set ↔ ∀ a : Fin 2, win0_3.index t a * S4000x128.size a ≤ (i a).val
      ∧ (i a).val < win0_3.index t a * S4000x128.size a + S4000x128.size a := by
  show i ∈ ((View.whole main_v16).slice (win0_3.rect t)).set ↔ _
  rw [View.set_slice_whole, Rect.mem_set_unit]
  exact Iff.rfl

/-- Every position of the result is written by some step: row `r` by step `r / 4000`. -/
theorem covered0 (i : S100000x128.Idx) :
    ∃ t : Fin cfg0.N, (cfg0.win 3).flush t = true ∧ i ∈ ((cfg0.win 3).blk t).view.set := by
  have hr : (i 0).val < 100000 := (i 0).isLt
  have hl : (i 1).val < 128 := (i 1).isLt
  have hN : cfg0.N = 25 := rfl
  let t : Fin cfg0.N := ⟨(i 0).val / 4000, by rw [hN]; omega⟩
  obtain ⟨-, -, -, -, -, -, o0, o1, -⟩ := blockIndex0 t
  have ht : t.val = (i 0).val / 4000 := rfl
  refine ⟨t, Gen.flush0_3 t, ?_⟩
  rw [mem_block0]
  intro a
  match a with
  | ⟨0, _⟩ =>
    show win0_3.index t (0 : Fin 2) * 4000 ≤ (i 0).val ∧ (i 0).val < win0_3.index t (0 : Fin 2) * 4000 + 4000
    omega
  | ⟨1, _⟩ =>
    show win0_3.index t (1 : Fin 2) * 128 ≤ (i 1).val ∧ (i 1).val < win0_3.index t (1 : Fin 2) * 128 + 128
    omega

section
variable (V : (c : Dev nD) → (b : Ref sig .tc) → Buf (Elt Ideal) ((c : Thread nD τ).loc b)) (c : Dev nD)

/-- After its 25 steps the call's result array is the scaled product, whole. -/
theorem final0 : (Gen.dat0 (F := Ideal) V c).arrAt 3 cfg0.N
    = Cert.Layers.scaledProduct (N := 100000) (K := 128) (C := 128) (V c main_arg0) (V c main_arg2) (V c main_v15) :=
  (Gen.dat0 (F := Ideal) V c).arrAt_eq_of_cover 3 _ (fun t _ => flushed0_eq V c t) covered0

/-- The same statement in the form the walk through the host operations takes as its hypothesis. -/
theorem final0' : Cert.KernelIdeal.Walk.Closed0 := fun V c => final0 V c

end

end Cert.KernelIdeal.Regions

end
-- ==== Proof.Region1.lean ====
/-
  The second pipelined call (the fused one), from blocks to the array.

  The call runs over 25 grid points; point `t` holds rows `4000·t … 4000·t + 3999` of the first aggregate `a` and
  of the normaliser column `d`, the whole bias row `b` and the whole weight matrix `w`, and stores rows
  `4000·t …` of its output. One stored entry is
      (Σ_q max (a[r, q] · d[r] + b[0, q]) 0 · w[q, c]) · d[r]
  for the row `r` of the array that the block's row is: it depends on row `r` of `a`, on `d[r]` and on `b`, `w` only.
  So every point writes back the block of ONE whole-array function, `Layers.hiddenProduct a d b w`, and the 25 blocks
  tile the array: the output array ends at that function.
-/
import proofs.«172764_j27797028339956_2_alg».proof.Proof.Gen.KernelIdeal.Frame
import proofs.«172764_j27797028339956_2_alg».proof.Proof.LibGcnDense
import proofs.«172764_j27797028339956_2_alg».proof.Proof.LibPlainDot
import proofs.«172764_j27797028339956_2_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Regions

open Cert.KernelIdeal Cert.KernelIdeal.Facts₀
open Idealize.ShloMosaic Idealize.ShloMosaic.ValueIdx Idealize.ShloMosaic.TcCoe Idealize.SL.Sem

/-- The fused call's product contracts the left operand's columns against the right operand's rows. -/
theorem plainDot1 : Cert.PlainDot.IsPlain dot_S4000x128_S128x64_S4000x64_1_0_0_1_n_n := ⟨rfl, rfl, rfl, rfl, rfl, rfl⟩

/-- One entry of the block the fused call stores, from the blocks it loaded: the scaled product of the rectified,
    scaled and biased rows. -/
theorem fusedBlock_apply (x0 : Vec Ideal S4000x128 .f32) (x1 : Vec Ideal S4000x1 .f32) (x2 : Vec Ideal S1x128 .f32)
    (x3 : Vec Ideal S128x64 .f32) (p : Fin 4000) (c : Fin 64) :
    Gen.k1_pay1 x0 x1 x2 x3 x1 (ix2 p c)
      = (∑ q : Fin 128, max (x0 (ix2 p q) * x1 (ix2 p (0 : Fin 1)) + x2 (ix2 (0 : Fin 1) q)) 0 * x3 (ix2 q c))
          * x1 (ix2 p (0 : Fin 1)) := by
  unfold Gen.k1_pay1
  simp only [truncf_apply, mulf_apply]
  refine congrArg₂ (· * ·) ?_ ?_
  · refine (Cert.PlainDot.matmul_zero_apply plainDot1 none _ _ p c).trans ?_
    refine Finset.sum_congr rfl fun q _ => ?_
    simp only [truncf_apply, maximumf_apply, addf_apply, mulf_apply, broadcast_apply, shapeCast_self,
      Cert.Column.broadcastTo_a1_ab_apply, broadcastTo_1b_ab_apply, Scalar.ofBits, Ideal.ofBits_def, Ideal.ofBits_zero_f32]
  · simp only [shapeCast_self, Cert.Column.broadcastTo_a1_ab_apply]

/-- The stored entry at block position `(p, q)` is the fused layer function at array position `i`, as soon as the
    loaded blocks hold row `i 0` of the aggregate, the normaliser at `i 0`, the bias row, and column `i 1` of the weights. -/
theorem fusedBlock_at (A : S100000x128.Idx → EReal) (D : S100000x1.Idx → EReal) (B : S1x128.Idx → EReal)
    (W : S128x64.Idx → EReal) (x0 : Vec Ideal S4000x128 .f32) (x1 : Vec Ideal S4000x1 .f32) (x2 : Vec Ideal S1x128 .f32)
    (x3 : Vec Ideal S128x64 .f32) (p : Fin 4000) (q : Fin 64) (i : S100000x64.Idx)
    (hx0 : ∀ k : Fin 128, x0 (ix2 p k) = A (ix2 (i 0) k))
    (hx1 : x1 (ix2 p (0 : Fin 1)) = D (ix2 (i 0) (0 : Fin 1)))
    (hx2 : ∀ k : Fin 128, x2 (ix2 (0 : Fin 1) k) = B (ix2 (0 : Fin 1) k))
    (hx3 : ∀ k : Fin 128, x3 (ix2 k q) = W (ix2 k (i 1))) :
    Gen.k1_pay1 x0 x1 x2 x3 x1 (ix2 p q) = Layers.hiddenProduct (N := 100000) (K := 128) (C := 64) A D B W i := by
  rw [fusedBlock_apply]
  simp only [hx0, hx1, hx2, hx3]
  rfl

variable (V : (c : Dev nD) → (b : Ref sig .tc) → Buf (Elt Ideal) ((c : Thread nD τ).loc b)) (c : Dev nD)

/-- Every access of the body starts at the origin of its staging buffer. -/
theorem origin1 : (![0, 0] : Fin 2 → Nat) = fun _ => 0 := funext fun a => by fin_cases a <;> rfl

/-- The index maps over the grid: the aggregate, the normaliser column and the output sit at block row `t`, the bias
    row and the weights at the origin. -/
theorem blockRow1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- WHAT POINT `t` WRITES BACK is block `t` of the fused layer function of the arrays the call entered with. -/
theorem flushed1_eq (t : Fin cfg1.N) :
    (Gen.dat1 (F := Ideal) V c).flushed 4 t = ((cfg1.win 4).blk t).view.read (Elt Ideal)
      (Layers.hiddenProduct (N := 100000) (K := 128) (C := 64) (V c main_v27) (V c main_v15) (V c main_v28) (V c main_arg4)) := by
  show (cfg1.win 4).cut (grid1.coords t) ((Gen.dat1 V c).after 4 t) = _
  rw [Gen.after1_4]
  unfold Gen.out1_4
  rw [View.canon_unit_zero origin1]
  simp only [View.ld_unit_zero (S := S4000x128) origin1, View.ld_unit_zero (S := S4000x1) origin1,
    View.ld_unit_zero (S := S1x128) origin1, View.ld_unit_zero (S := S128x64) origin1]
  obtain ⟨e00, e01, e10, e11, e20, e21, e30, e31, e40, e41⟩ := blockRow1 t
  funext j
  obtain ⟨p, q, rfl⟩ : ∃ (p : Fin 4000) (q : Fin 64), j = ix2 p q := ⟨j 0, j 1, eq_ix2 j⟩
  have hp : p.val < 4000 := p.isLt
  have hq : q.val < 64 := q.isLt
  show Gen.k1_pay1 (Gen.iblk1 V c 0 t) (Gen.iblk1 V c 1 t) (Gen.iblk1 V c 2 t) (Gen.iblk1 V c 3 t) (Gen.iblk1 V c 1 t) (ix2 p q)
    = Layers.hiddenProduct (N := 100000) (K := 128) (C := 64) (V c main_v27) (V c main_v15) (V c main_v28) (V c main_arg4)
        (((cfg1.win 4).blk t).view.emb (ix2 p q))
  refine fusedBlock_at (V c main_v27) (V c main_v15) (V c main_v28) (V c main_arg4)
    (Gen.iblk1 V c 0 t) (Gen.iblk1 V c 1 t) (Gen.iblk1 V c 2 t) (Gen.iblk1 V c 3 t) p q
    (((cfg1.win 4).blk t).view.emb (ix2 p q)) ?_ ?_ ?_ ?_
  · intro k
    show V c main_v27 (((cfg1.win 0).blk t).view.emb (ix2 p k)) = _
    refine congrArg (V c main_v27) ?_
    funext a; apply Fin.ext
    match a with
    | ⟨0, _⟩ => show win1_0.index t (0 : Fin 2) * 4000 + 1 * p.val = win1_4.index t (0 : Fin 2) * 4000 + 1 * p.val; omega
    | ⟨1, _⟩ => show win1_0.index t (1 : Fin 2) * 128 + 1 * k.val = k.val; omega
  · show V c main_v15 (((cfg1.win 1).blk t).view.emb (ix2 p (0 : Fin 1))) = _
    refine congrArg (V c main_v15) ?_
    funext a; apply Fin.ext
    match a with
    | ⟨0, _⟩ => show win1_1.index t (0 : Fin 2) * 4000 + 1 * p.val = win1_4.index t (0 : Fin 2) * 4000 + 1 * p.val; omega
    | ⟨1, _⟩ => show win1_1.index t (1 : Fin 2) * 1 + 1 * 0 = 0; omega
  · intro k
    show V c main_v28 (((cfg1.win 2).blk t).view.emb (ix2 (0 : Fin 1) k)) = _
    refine congrArg (V c main_v28) ?_
    funext a; apply Fin.ext
    match a with
    | ⟨0, _⟩ => show win1_2.index t (0 : Fin 2) * 1 + 1 * 0 = 0; omega
    | ⟨1, _⟩ => show win1_2.index t (1 : Fin 2) * 128 + 1 * k.val = k.val; omega
  · intro k
    show V c main_arg4 (((cfg1.win 3).blk t).view.emb (ix2 k q)) = _
    refine congrArg (V c main_arg4) ?_
    funext a; apply Fin.ext
    match a with
    | ⟨0, _⟩ => show win1_3.index t (0 : Fin 2) * 128 + 1 * k.val = k.val; omega
    | ⟨1, _⟩ => show win1_3.index t (1 : Fin 2) * 64 + 1 * q.val = win1_4.index t (1 : Fin 2) * 64 + 1 * q.val; omega

/-- An index of the output array is in point `t`'s block iff each coordinate is in the block's range on its axis. -/
theorem mem_block1 (t : Fin cfg1.N) (i : S100000x64.Idx) :
    i ∈ ((cfg1.win 4).blk t).view.set ↔ ∀ a : Fin 2, win1_4.index t a * S4000x64.size a ≤ (i a).val
      ∧ (i a).val < win1_4.index t a * S4000x64.size a + S4000x64.size a := by
  show i ∈ ((View.whole main_v29).slice (win1_4.rect t)).set ↔ _
  rw [View.set_slice_whole, Rect.mem_set_unit]
  exact Iff.rfl

/-- The 25 row blocks tile the output array: row `r` is in the block of point `r / 4000`. -/
theorem cover1 (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  have hN : grid1.N = 25 := Gen.N_1
  let t : Fin cfg1.N := ⟨(i 0).val / 4000, by show (i 0).val / 4000 < grid1.N; omega⟩
  obtain ⟨-, -, -, -, -, -, -, -, e40, e41⟩ := blockRow1 t
  have ht : t.val = (i 0).val / 4000 := rfl
  refine ⟨t, Gen.flush1_4 t, ?_⟩
  rw [mem_block1]
  intro a
  match a with
  | ⟨0, _⟩ =>
    show win1_4.index t (0 : Fin 2) * 4000 ≤ (i 0).val ∧ (i 0).val < win1_4.index t (0 : Fin 2) * 4000 + 4000
    omega
  | ⟨1, _⟩ =>
    show win1_4.index t (1 : Fin 2) * 64 ≤ (i 1).val ∧ (i 1).val < win1_4.index t (1 : Fin 2) * 64 + 64
    omega

/-- THE OUTPUT ARRAY after the call: the fused layer function of the arrays the call entered with. -/
theorem final1 : (Gen.dat1 (F := Ideal) V c).arrAt 4 cfg1.N
    = Layers.hiddenProduct (N := 100000) (K := 128) (C := 64) (V c main_v27) (V c main_v15) (V c main_v28) (V c main_arg4) :=
  (Gen.dat1 V c).arrAt_eq_of_cover 4 _ (fun t _ => flushed1_eq V c t) (cover1 )

end Cert.KernelIdeal.Regions

end
-- ==== Proof.Region2.lean ====
/-
  The last pipelined call, read as one whole-array function.

  The call walks the 100000 rows of the second layer's aggregate in 25 steps of 4000 rows. At step `t` it holds rows
  `4000 t … 4000 t + 3999` of the aggregate `a : [100000, 64]` and of the normaliser column `d : [100000, 1]`, and the
  whole bias row `b : [1, 64]`; it multiplies each held row of `a` by that row's entry of `d`, adds `b` to it, and
  writes the 4000 rows back to the same rows of the result. An entry `(n, l)` of the result therefore depends only on
  `a[n, l]`, `d[n, 0]` and `b[0, l]`:
        result[n, l] = a[n, l] · d[n, 0] + b[0, l],
  which is `Cert.Layers.scaleBias a d b`. Three things are shown, for arbitrary contents of the buffers when the call
  is entered:
  * one step's arithmetic at a position `(p, l)` of its block (`scaleBiasBlock_apply`);
  * the three held blocks, read where that arithmetic reads them, are the arrays at row `4000 t + p`, so that what
    step `t` writes back is block `t` of `scaleBias a d b` (`blockReads2`, `flushed2_eq`);
  * the 25 blocks tile the result — row `r` lies in block `r / 4000` — so the result array ends as
    `scaleBias a d b`, whole (`covered2`, `final2`).
-/
import proofs.«172764_j27797028339956_2_alg».proof.Proof.Gen.KernelIdeal.Frame
import proofs.«172764_j27797028339956_2_alg».proof.Proof.LibGcnDense
import proofs.«172764_j27797028339956_2_alg».proof.Proof.LibColumn
import proofs.«172764_j27797028339956_2_alg».proof.Proof.HostWalk
import Idealize.ShloMosaic.Lib.Pipeline.Value
import Idealize.ShloMosaic.Lib.ValueIdx
import Idealize.ShloMosaic.Lib.ValueLayout

set_option maxRecDepth 16384

noncomputable section

namespace Cert.KernelIdeal.Regions

open Cert.KernelIdeal Idealize.ShloMosaic Idealize.ShloMosaic.TcCoe Idealize.SL.Sem
open Idealize.ShloMosaic.ValueIdx
open Idealize.ShloMosaic.Pipeline (Dat)

/-- The offsets of a rectangle that starts at the origin, spelt as the constant zero function. -/
theorem origin2 : (![0, 0] : Fin 2 → Nat) = fun _ => 0 := funext fun a => by fin_cases a <;> rfl

/-! ## One step's arithmetic at one position -/

/-- Position `(p, l)` of what one step stores: the aggregate's entry there times the normaliser's entry of row `p`,
    plus the bias of lane `l`. (The reshapes to the same shape do nothing; the normaliser's one column is repeated
    across the lanes and the bias's one row down the rows.) -/
theorem scaleBiasBlock_apply (x0 : Vec Ideal S4000x64 .f32) (x1 : Vec Ideal S4000x1 .f32) (x2 : Vec Ideal S1x64 .f32)
    (p : Fin 4000) (l : Fin 64) :
    Gen.k2_pay1 x0 x1 x2 (ix2 p l) = x0 (ix2 p l) * x1 (ix2 p (0 : Fin 1)) + x2 (ix2 (0 : Fin 1) l) := by
  unfold Gen.k2_pay1
  simp only [shapeCast_self]
  show x0 (ix2 p l) * broadcastTo S4000x64 x1 _ (ix2 p l) + broadcastTo S4000x64 x2 _ (ix2 p l) = _
  rw [Cert.Column.broadcastTo_a1_ab_apply, broadcastTo_1b_ab_apply]

/-! ## Which block each window holds at a step -/

/-- At step `t` the aggregate's, the normaliser's and the result's windows hold row block `t` (their one column
    block); the bias's window holds its only block. There are 25 steps. -/
theorem blockIndex2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 ∧ t.val < 25 :=
  (by decide +kernel : ∀ t : Fin grid2.N, _)

/-- The three input blocks of step `t`, read at the positions the arithmetic uses for `(p, l)`, are the arrays read at
    row `4000 t + p`: the aggregate at lane `l`, the normaliser at its one column, the bias at its one row and lane
    `l`. That is the scaled and biased aggregate at the position of the result where step `t`'s block puts `(p, l)`. -/
theorem blockReads2 (A : S100000x64.Idx → EReal) (D : S100000x1.Idx → EReal) (B : S1x64.Idx → EReal)
    (t : Fin cfg2.N) (p : Fin 4000) (l : Fin 64) :
    A (((cfg2.win 0).blk t).view.emb (ix2 p l)) * D (((cfg2.win 1).blk t).view.emb (ix2 p (0 : Fin 1)))
        + B (((cfg2.win 2).blk t).view.emb (ix2 (0 : Fin 1) l))
      = Cert.Layers.scaleBias (N := 100000) (C := 64) A D B (((cfg2.win 3).blk t).view.emb (ix2 p l)) := by
  obtain ⟨a0, a1, d0, d1, b0, b1, o0, o1, -⟩ := blockIndex2 t
  have e0 : ((cfg2.win 0).blk t).view.emb (ix2 p l) = ((cfg2.win 3).blk t).view.emb (ix2 p l) := by
    funext a; apply Fin.ext
    match a with
    | ⟨0, _⟩ => show win2_0.index t (0 : Fin 2) * 4000 + 1 * p.val = win2_3.index t (0 : Fin 2) * 4000 + 1 * p.val; omega
    | ⟨1, _⟩ => show win2_0.index t (1 : Fin 2) * 64 + 1 * l.val = win2_3.index t (1 : Fin 2) * 64 + 1 * l.val; omega
  have e1 : ((cfg2.win 1).blk t).view.emb (ix2 p (0 : Fin 1))
      = ix2 ((((cfg2.win 3).blk t).view.emb (ix2 p l)) 0) (0 : Fin 1) := by
    funext a; apply Fin.ext
    match a with
    | ⟨0, _⟩ => show win2_1.index t (0 : Fin 2) * 4000 + 1 * p.val = win2_3.index t (0 : Fin 2) * 4000 + 1 * p.val; omega
    | ⟨1, _⟩ => show win2_1.index t (1 : Fin 2) * 1 + 1 * 0 = 0; omega
  have e2 : ((cfg2.win 2).blk t).view.emb (ix2 (0 : Fin 1) l)
      = ix2 (0 : Fin 1) ((((cfg2.win 3).blk t).view.emb (ix2 p l)) 1) := by
    funext a; apply Fin.ext
    match a with
    | ⟨0, _⟩ => show win2_2.index t (0 : Fin 2) * 1 + 1 * 0 = 0; omega
    | ⟨1, _⟩ => show win2_2.index t (1 : Fin 2) * 64 + 1 * l.val = win2_3.index t (1 : Fin 2) * 64 + 1 * l.val; omega
  rw [e0, e1, e2]
  rfl

section
variable (V : (c : Dev nD) → (b : Ref sig .tc) → Buf (Elt Ideal) ((c : Thread nD τ).loc b)) (c : Dev nD)

/-- What step `t` writes back is row block `t` of the scaled and biased aggregate. -/
theorem flushed2_eq (t : Fin cfg2.N) :
    (Gen.dat2 (F := Ideal) V c).flushed 3 t = ((cfg2.win 3).blk t).view.read (Elt Ideal)
      (Cert.Layers.scaleBias (N := 100000) (C := 64) (V c main_v40) (V c main_v15) (V c main_v41)) := by
  show (cfg2.win 3).cut (grid2.coords t) ((Gen.dat2 V c).after 3 t) = _
  rw [Gen.after2_3]
  unfold Gen.out2_3
  rw [View.canon_unit_zero origin2]
  simp only [View.ld_unit_zero (S := S4000x64) origin2, View.ld_unit_zero (S := S4000x1) origin2,
    View.ld_unit_zero (S := S1x64) origin2]
  refine funext fun (j : S4000x64.Idx) => ?_
  obtain ⟨p, l, rfl⟩ : ∃ (p : Fin 4000) (l : Fin 64), j = ix2 p l := ⟨j 0, j 1, eq_ix2 j⟩
  show Gen.k2_pay1 (Gen.iblk2 V c 0 t) (Gen.iblk2 V c 1 t) (Gen.iblk2 V c 2 t) (ix2 p l)
      = Cert.Layers.scaleBias (N := 100000) (C := 64) (V c main_v40) (V c main_v15) (V c main_v41)
          (((cfg2.win 3).blk t).view.emb (ix2 p l))
  rw [scaleBiasBlock_apply]
  exact blockReads2 (V c main_v40) (V c main_v15) (V c main_v41) t p l

end

/-- A position of the result lies in step `t`'s block exactly when, on each axis, its coordinate lies in the block's
    range there. -/
theorem mem_block2 (t : Fin cfg2.N) (i : S100000x64.Idx) :
    i ∈ ((cfg2.win 3).blk t).view.set ↔ ∀ a : Fin 2, win2_3.index t a * S4000x64.size a ≤ (i a).val
      ∧ (i a).val < win2_3.index t a * S4000x64.size a + S4000x64.size a := by
  show i ∈ ((View.whole main_v42).slice (win2_3.rect t)).set ↔ _
  rw [View.set_slice_whole, Rect.mem_set_unit]
  exact Iff.rfl

/-- Every position of the result is written by some step: row `r` by step `r / 4000`. -/
theorem covered2 (i : S100000x64.Idx) :
    ∃ t : Fin cfg2.N, (cfg2.win 3).flush t = true ∧ i ∈ ((cfg2.win 3).blk t).view.set := by
  have hr : (i 0).val < 100000 := (i 0).isLt
  have hl : (i 1).val < 64 := (i 1).isLt
  have hN : cfg2.N = 25 := rfl
  let t : Fin cfg2.N := ⟨(i 0).val / 4000, by rw [hN]; omega⟩
  obtain ⟨-, -, -, -, -, -, o0, o1, -⟩ := blockIndex2 t
  have ht : t.val = (i 0).val / 4000 := rfl
  refine ⟨t, Gen.flush2_3 t, ?_⟩
  rw [mem_block2]
  intro a
  match a with
  | ⟨0, _⟩ =>
    show win2_3.index t (0 : Fin 2) * 4000 ≤ (i 0).val ∧ (i 0).val < win2_3.index t (0 : Fin 2) * 4000 + 4000
    omega
  | ⟨1, _⟩ =>
    show win2_3.index t (1 : Fin 2) * 64 ≤ (i 1).val ∧ (i 1).val < win2_3.index t (1 : Fin 2) * 64 + 64
    omega

section
variable (V : (c : Dev nD) → (b : Ref sig .tc) → Buf (Elt Ideal) ((c : Thread nD τ).loc b)) (c : Dev nD)

/-- After its 25 steps the call's result array is the scaled and biased aggregate, whole. -/
theorem final2 : (Gen.dat2 (F := Ideal) V c).arrAt 3 cfg2.N
    = Cert.Layers.scaleBias (N := 100000) (C := 64) (V c main_v40) (V c main_v15) (V c main_v41) :=
  (Gen.dat2 (F := Ideal) V c).arrAt_eq_of_cover 3 _ (fun t _ => flushed2_eq V c t) covered2

/-- The same statement in the form the walk through the host operations takes as its hypothesis. -/
theorem final2' : Cert.KernelIdeal.Walk.Closed2 := fun V c => final2 V c

end

end Cert.KernelIdeal.Regions

end
-- ==== Proof.LibRowGatherScatter.lean ====
/-
  ROW GATHER AND ROW / VECTOR SCATTER-ADD, READ AT ONE ENTRY (general lemmas: any extents, any element type).

  A table `x : [N, C]` is gathered at `E` start indices `S : [E, 1]` (what `x[src]` lowers to): result row `e` is the
  table's row at `S[e, 0]`, the start index read as a signed integer and clamped into `[0, N − 1]` (`srcRow`):
      gather x S (e, k) = x (srcRow S e, k)                                            (`gather_row_apply`).
  `E` update rows `u : [E, C]` are scatter-added into `x : [N, C]` at scatter indices `D : [E, 1]` (what a segment sum
  lowers to): update row `e` lands on row `n` exactly when `D[e, 0]`, read as a signed integer and NOT clamped, is `n`
  (`Lands D e n`); an update whose index is negative or at least `N` lands nowhere. In exact (extended-real)
  arithmetic the result's entry is the operand's entry plus the sum, over the edges that land there, of their updates:
      scatterAdd x D u (n, k) = x (n, k) + ∑ e with Lands D e n, u (e, k)              (`scatterAdd_row_apply`),
  and the same for `E` scalars scatter-added into a vector `x : [N]` (a degree count):
      scatterAdd x D u (n)    = x (n)    + ∑ e with Lands D e n, u (e)                 (`scatterAdd_vec_apply`).

  The dimension numbers enter through the predicates `IsRowGather`, `IsRowScatter`, `IsVecScatter`, which say what
  the lists of a record are; at a literal record every field equation is `rfl`. Each lemma is first proved for the
  literal record (`rowGatherDims`, `rowScatterDims`, `vecScatterDims`: those lists with an arbitrary proof of their
  conditions) by computing the start, window and offset coordinates axis by axis; the scatter lemmas go through the
  characterisation of the landing index (`resultIdx?_rowDims`: update `(e, c)` lands on `(n, k)` iff `Lands D e n` and
  `c = k`; `resultIdx?_vecDims`: update `e` lands on `n` iff `Lands D e n`) and then re-index the sum over update
  multi-indices by the edge number.
-/
import Idealize.ShloMosaic.PureOps.Ideal
import Idealize.ShloMosaic.Lib.ValueIdx

noncomputable section

open scoped BigOperators

namespace Cert.RowGS

open Idealize.ShloMosaic Idealize.ShloMosaic.ValueIdx

variable {N E C w : Nat}

/-- The row an edge reads: its start index read as a signed integer and clamped into `[0, N − 1]`. -/
def srcRow (hN : 0 < N) (S : IVec ⟨2, ![E, 1]⟩ w) (e : Fin E) : Fin N :=
  ⟨min (S (ix2 e (0 : Fin 1))).toInt.toNat (N - 1), by omega⟩

/-- Edge `e`'s update lands on row `n`: its scatter index read as a signed integer is `n`. -/
abbrev Lands (D : IVec ⟨2, ![E, 1]⟩ w) (e : Fin E) (n : Fin N) : Prop :=
  (D (ix2 e (0 : Fin 1))).toInt = (n.val : Int)

/-- An axis of a rank-2 shape is the first or the second. -/
theorem fin2_cases (a : Fin 2) : a = 0 ∨ a = 1 := by
  match a with
  | ⟨0, _⟩ => exact Or.inl rfl
  | ⟨1, _⟩ => exact Or.inr rfl

/-! ## Gather of whole rows -/

/-- `g` gathers whole rows of an `[N, C]` table at `[E, 1]` start indices: the row axis is collapsed and is the one
    the start index addresses, the column axis is the one offset axis with the full slice `C`, nothing is batched. -/
structure IsRowGather (g : GatherDims ⟨2, ![N, C]⟩ ⟨2, ![E, 1]⟩ ⟨2, ![E, C]⟩) : Prop where
  od : g.offsetDims = [1]
  cs : g.collapsedSliceDims = [0]
  ob : g.operandBatchingDims = []
  sb : g.startIndicesBatchingDims = []
  sim : g.startIndexMap = [0]
  ivd : g.indexVectorDim = 1
  ss : g.sliceSizes = ![1, C]

/-- The row-gather dimension numbers as a literal record (any proof `wf` of their conditions). -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The gather at the literal record, read at `(e, k)`. On the row axis the operand coordinate is the clamped start
    (no batching coordinate; the axis is collapsed, so no offset); on the column axis the start is `0` (the start
    index does not address it) and the offset coordinate is `k`. -/
theorem gather_rowDims_apply {α : Type} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (S : IVec ⟨2, ![E, 1]⟩ w) (e : Fin E) (k : Fin C) :
    Host.gather (rowGatherDims N E C wf) x S (ix2 e k) = x (ix2 (srcRow hN S e) k) := by
  unfold Host.gather
  congr 1
  funext a
  refine Fin.ext ?_
  show (rowGatherDims N E C wf).start (ix2 e k) S a + (rowGatherDims N E C wf).batchCoord (ix2 e k) a
    + (rowGatherDims N E C wf).offCoord (ix2 e k) a = _
  rw [GatherDims.batchCoord_eq_zero _ _ _ List.not_mem_nil]
  rcases fin2_cases a with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    -- the start index of result row `e` is read at `[e, 0]`
    have hsi : (rowGatherDims N E C wf).siIdx (ix2 e k)
        ⟨List.idxOf (0 : Fin 2) (rowGatherDims N E C wf).startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  · unfold GatherDims.start
    rw [dif_neg (show (1 : Fin 2) ∉ (rowGatherDims N E C wf).startIndexMap from
      show (1 : Fin 2) ∉ ([0] : List (Fin 2)) from by decide)]
    unfold GatherDims.offCoord
    rw [dif_pos ((GatherDims.mem_sKept _ _).mpr
      ⟨show (1 : Fin 2) ∉ ([0] : List (Fin 2)) from by decide, List.not_mem_nil⟩)]
    simp only [Nat.add_zero, Nat.zero_add]
    rfl

/-- THE ROW GATHER READ AT `(e, k)`: the table at row `srcRow S e` (the start index `S[e, 0]`, read signed and clamped
    into `[0, N − 1]`), column `k`. -/
theorem gather_row_apply {α : Type} {g : GatherDims ⟨2, ![N, C]⟩ ⟨2, ![E, 1]⟩ ⟨2, ![E, C]⟩} (hg : IsRowGather g)
    (hN : 0 < N) (x : (⟨2, ![N, C]⟩ : Shape).Idx → α) (S : IVec ⟨2, ![E, 1]⟩ w) (e : Fin E) (k : Fin C) :
    Host.gather g x S (ix2 e k) = x (ix2 (srcRow hN S e) k) := by
  obtain ⟨od, cs, ob, sb, sim, ivd, ss, wf⟩ := g
  obtain ⟨h1, h2, h3, h4, h5, h6, h7⟩ := hg
  dsimp only at h1 h2 h3 h4 h5 h6 h7
  subst h1 h2 h3 h4 h5 h6 h7
  exact gather_rowDims_apply hN wf x S e k

/-! ## Scatter-add of rows into an `[N, C]` array -/

/-- `d` scatters `[E, C]` update rows into an `[N, C]` operand at `[E, 1]` scatter indices: the row axis is the
    inserted one and the one the scatter index addresses, the column axis is the one window axis. -/
structure IsRowScatter (d : ScatterDims ⟨2, ![N, C]⟩ ⟨2, ![E, 1]⟩ ⟨2, ![E, C]⟩) : Prop where
  uw : d.updateWindowDims = [1]
  iw : d.insertedWindowDims = [0]
  sd : d.scatterDimsToOperandDims = [0]
  ivd : d.indexVectorDim = 1

/-- The row-scatter dimension numbers as a literal record (any proof `wf` of their conditions). -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- An operand axis carries a window coordinate exactly when it is not an inserted axis. -/
theorem scatter_mem_sKept {s si u : Shape} (d : ScatterDims s si u) (a : Fin s.rank) :
    a ∈ d.sKept ↔ a ∉ d.insertedWindowDims := by
  simp [ScatterDims.sKept, Shape.kept, List.mem_filter, List.mem_finRange]

section RowScatter
variable (wf : ScatterDims.WF ⟨2, ![N, C]⟩ ⟨2, ![E, 1]⟩ ⟨2, ![E, C]⟩ [1] [0] [0] 1)
  (j : (⟨2, ![E, C]⟩ : Shape).Idx) (D : IVec ⟨2, ![E, 1]⟩ w)

/-- On the row axis the window of update `(e, c)` starts at the scatter index `D[e, 0]`, read signed … -/
theorem rowScatter_start0 :
    (rowScatterDims N E C wf).start j D (0 : Fin 2) = (D (ix2 (j 0) (0 : Fin 1))).toInt := by
  unfold ScatterDims.start
  rw [dif_pos (show (0 : Fin 2) ∈ (rowScatterDims N E C wf).scatterDimsToOperandDims from List.mem_singleton.mpr rfl)]
  have hsi : (rowScatterDims N E C wf).siIdx j
      ⟨List.idxOf (0 : Fin 2) (rowScatterDims N E C wf).scatterDimsToOperandDims,
        List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- … on the column axis, which the scatter index does not address, at `0`. -/
theorem rowScatter_start1 : (rowScatterDims N E C wf).start j D (1 : Fin 2) = 0 := by
  unfold ScatterDims.start
  rw [dif_neg (show (1 : Fin 2) ∉ (rowScatterDims N E C wf).scatterDimsToOperandDims from
    show (1 : Fin 2) ∉ ([0] : List (Fin 2)) from by decide)]

/-- The row axis is inserted: no window coordinate there … -/
theorem rowScatter_window0 : (rowScatterDims N E C wf).window j (0 : Fin 2) = 0 := by
  unfold ScatterDims.window
  rw [dif_neg (fun h => (scatter_mem_sKept _ _).mp h (List.mem_singleton.mpr rfl))]

/-- … and on the column axis the window coordinate of update `(e, c)` is `c`. -/
theorem rowScatter_window1 : (rowScatterDims N E C wf).window j (1 : Fin 2) = (j 1).val := by
  unfold ScatterDims.window
  rw [dif_pos ((scatter_mem_sKept _ _).mpr (show (1 : Fin 2) ∉ ([0] : List (Fin 2)) from by decide))]
  rfl

/-- WHERE AN UPDATE LANDS: update `(e, c)` lands on `(n, k)` iff its scatter index, read signed, is `n` and `c = k`.
    (The landing index is start plus window coordinate on each axis, kept only when in range: on the row axis that
    is `D[e, 0] + 0`, in range iff it is some `n < N`; on the column axis `0 + c`, always in range.) -/
theorem resultIdx?_rowDims (i : (⟨2, ![N, C]⟩ : Shape).Idx) :
    (rowScatterDims N E C wf).resultIdx? j D = some i ↔ Lands D (j 0) (i 0) ∧ (j 1).val = (i 1).val := by
  have hs0 := rowScatter_start0 wf j D
  have hs1 := rowScatter_start1 wf j D
  have hw0 := rowScatter_window0 wf j
  have hw1 := rowScatter_window1 wf j
  have hi0 : (i 0).val < N := idx2_lt0 i
  have hi1 : (i 1).val < C := idx2_lt1 i
  have hj1 : (j 1).val < C := idx2_lt1 j
  unfold ScatterDims.resultIdx?
  constructor
  · intro h
    split at h
    · rename_i hc
      have hf := Option.some.inj h
      have e0 : ((rowScatterDims N E C wf).start j D (0 : Fin 2)
          + ((rowScatterDims N E C wf).window j (0 : Fin 2) : Int)).toNat = (i 0).val :=
        congrArg Fin.val (congrFun hf 0)
      have e1 : ((rowScatterDims N E C wf).start j D (1 : Fin 2)
          + ((rowScatterDims N E C wf).window j (1 : Fin 2) : Int)).toNat = (i 1).val :=
        congrArg Fin.val (congrFun hf 1)
      have c0 := (hc 0).1
      have c1 := (hc 1).1
      rw [hs0, hw0] at e0 c0
      rw [hs1, hw1] at e1 c1
      refine ⟨?_, ?_⟩
      · show (D (ix2 (j 0) (0 : Fin 1))).toInt = ((i 0).val : Int)
        omega
      · omega
    · cases h
  · rintro ⟨hl, h1⟩
    have hl' : (D (ix2 (j 0) (0 : Fin 1))).toInt = ((i 0).val : Int) := hl
    have hc : ∀ a, 0 ≤ (rowScatterDims N E C wf).start j D a + ((rowScatterDims N E C wf).window j a : Int) ∧
        (rowScatterDims N E C wf).start j D a + ((rowScatterDims N E C wf).window j a : Int)
          < ((⟨2, ![N, C]⟩ : Shape).size a : Int) := by
      intro a
      rcases fin2_cases a with rfl | rfl
      · rw [hs0, hw0, hl']
        show 0 ≤ ((i 0).val : Int) + ((0 : Nat) : Int) ∧ ((i 0).val : Int) + ((0 : Nat) : Int) < (N : Int)
        omega
      · rw [hs1, hw1]
        show (0 : Int) ≤ 0 + ((j 1).val : Int) ∧ (0 : Int) + ((j 1).val : Int) < (C : Int)
        omega
    rw [dif_pos hc]
    congr 1
    funext a
    refine Fin.ext ?_
    rcases fin2_cases a with rfl | rfl
    · show ((rowScatterDims N E C wf).start j D (0 : Fin 2)
          + ((rowScatterDims N E C wf).window j (0 : Fin 2) : Int)).toNat = (i 0).val
      rw [hs0, hw0, hl']
      omega
    · show ((rowScatterDims N E C wf).start j D (1 : Fin 2)
          + ((rowScatterDims N E C wf).window j (1 : Fin 2) : Int)).toNat = (i 1).val
      rw [hs1, hw1]
      omega

end RowScatter

section RowScatterSum
variable (wf : ScatterDims.WF ⟨2, ![N, C]⟩ ⟨2, ![E, 1]⟩ ⟨2, ![E, C]⟩ [1] [0] [0] 1)

/-- The row scatter-add at the literal record, read at `(n, k)`: the updates landing on `(n, k)` are the `(e, k)`
    with `Lands D e n`, and `(e, c) ↦ e`, `e ↦ (e, k)` are inverse bijections between the two index sets. -/
theorem scatterAdd_rowDims_apply {φ : FTy} (x : FVec Ideal ⟨2, ![N, C]⟩ φ) (D : IVec ⟨2, ![E, 1]⟩ w)
    (u : FVec Ideal ⟨2, ![E, C]⟩ φ) (n : Fin N) (k : Fin C) :
    Host.scatterAdd (rowScatterDims N E C wf) x D u (ix2 n k)
      = x (ix2 n k) + ∑ e ∈ Finset.univ.filter (fun e : Fin E => Lands D e n), u (ix2 e k) := by
  show Ideal.hostScatterAdd (rowScatterDims N E C wf) x D u (ix2 n k) = _
  unfold Ideal.hostScatterAdd
  congr 1
  refine Finset.sum_nbij' (fun j => (j 0 : Fin E)) (fun e => ix2 e k) ?_ ?_ ?_ ?_ ?_
  · intro j hj
    obtain ⟨a, b, rfl⟩ : ∃ a b, j = ix2 a b := ⟨_, _, eq_ix2 j⟩
    have h := (resultIdx?_rowDims wf (ix2 a b) D (ix2 n k)).mp (Finset.mem_filter.mp hj).2
    exact Finset.mem_filter.mpr ⟨Finset.mem_univ _, h.1⟩
  · intro e he
    have h : Lands D e n := (Finset.mem_filter.mp he).2
    exact Finset.mem_filter.mpr ⟨Finset.mem_univ _, (resultIdx?_rowDims wf (ix2 e k) D (ix2 n k)).mpr ⟨h, rfl⟩⟩
  · intro j hj
    obtain ⟨a, b, rfl⟩ : ∃ a b, j = ix2 a b := ⟨_, _, eq_ix2 j⟩
    have h := (resultIdx?_rowDims wf (ix2 a b) D (ix2 n k)).mp (Finset.mem_filter.mp hj).2
    obtain rfl : b = k := Fin.ext h.2
    rfl
  · intro e _
    rfl
  · intro j hj
    obtain ⟨a, b, rfl⟩ : ∃ a b, j = ix2 a b := ⟨_, _, eq_ix2 j⟩
    have h := (resultIdx?_rowDims wf (ix2 a b) D (ix2 n k)).mp (Finset.mem_filter.mp hj).2
    obtain rfl : b = k := Fin.ext h.2
    rfl

end RowScatterSum

/-- THE ROW SCATTER-ADD READ AT `(n, k)`: the operand's entry plus the sum, over the edges `e` whose scatter index
    (read signed, not clamped) is `n`, of the update entries `u (e, k)`. -/
theorem scatterAdd_row_apply {φ : FTy} {d : ScatterDims ⟨2, ![N, C]⟩ ⟨2, ![E, 1]⟩ ⟨2, ![E, C]⟩} (hd : IsRowScatter d)
    (x : FVec Ideal ⟨2, ![N, C]⟩ φ) (D : IVec ⟨2, ![E, 1]⟩ w) (u : FVec Ideal ⟨2, ![E, C]⟩ φ) (n : Fin N) (k : Fin C) :
    Host.scatterAdd d x D u (ix2 n k)
      = x (ix2 n k) + ∑ e ∈ Finset.univ.filter (fun e : Fin E => Lands D e n), u (ix2 e k) := by
  obtain ⟨uw, iw, sd, ivd, wf⟩ := d
  obtain ⟨h1, h2, h3, h4⟩ := hd
  dsimp only at h1 h2 h3 h4
  subst h1 h2 h3 h4
  exact scatterAdd_rowDims_apply wf x D u n k

/-! ## Scatter-add of scalars into an `[N]` vector -/

/-- `d` scatters `[E]` update scalars into an `[N]` operand at `[E, 1]` scatter indices: the operand's one axis is
    inserted and addressed by the scatter index; the updates have no window axis. -/
structure IsVecScatter (d : ScatterDims ⟨1, ![N]⟩ ⟨2, ![E, 1]⟩ ⟨1, ![E]⟩) : Prop where
  uw : d.updateWindowDims = []
  iw : d.insertedWindowDims = [0]
  sd : d.scatterDimsToOperandDims = [0]
  ivd : d.indexVectorDim = 1

/-- The vector-scatter dimension numbers as a literal record (any proof `wf` of their conditions). -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section VecScatter
variable (wf : ScatterDims.WF ⟨1, ![N]⟩ ⟨2, ![E, 1]⟩ ⟨1, ![E]⟩ [] [0] [0] 1)
  (j : (⟨1, ![E]⟩ : Shape).Idx) (D : IVec ⟨2, ![E, 1]⟩ w)

/-- The window of update `e` starts at the scatter index `D[e, 0]`, read signed … -/
theorem vecScatter_start0 :
    (vecScatterDims N E wf).start j D (0 : Fin 1) = (D (ix2 (j 0) (0 : Fin 1))).toInt := by
  unfold ScatterDims.start
  rw [dif_pos (show (0 : Fin 1) ∈ (vecScatterDims N E wf).scatterDimsToOperandDims from List.mem_singleton.mpr rfl)]
  have hsi : (vecScatterDims N E wf).siIdx j
      ⟨List.idxOf (0 : Fin 1) (vecScatterDims N E wf).scatterDimsToOperandDims,
        List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- … and the operand's axis is inserted: no window coordinate. -/
theorem vecScatter_window0 : (vecScatterDims N E wf).window j (0 : Fin 1) = 0 := by
  unfold ScatterDims.window
  rw [dif_neg (fun h => (scatter_mem_sKept _ _).mp h (List.mem_singleton.mpr rfl))]

/-- WHERE AN UPDATE LANDS: update `e` lands on `n` iff its scatter index, read signed, is `n`. -/
theorem resultIdx?_vecDims (i : (⟨1, ![N]⟩ : Shape).Idx) :
    (vecScatterDims N E wf).resultIdx? j D = some i ↔ Lands D (j 0) (i 0) := by
  have hs0 := vecScatter_start0 wf j D
  have hw0 := vecScatter_window0 wf j
  have hi0 : (i 0).val < N := (i 0).isLt
  unfold ScatterDims.resultIdx?
  constructor
  · intro h
    split at h
    · rename_i hc
      have hf := Option.some.inj h
      have e0 : ((vecScatterDims N E wf).start j D (0 : Fin 1)
          + ((vecScatterDims N E wf).window j (0 : Fin 1) : Int)).toNat = (i 0).val :=
        congrArg Fin.val (congrFun hf 0)
      have c0 := (hc 0).1
      rw [hs0, hw0] at e0 c0
      show (D (ix2 (j 0) (0 : Fin 1))).toInt = ((i 0).val : Int)
      omega
    · cases h
  · intro hl
    have hl' : (D (ix2 (j 0) (0 : Fin 1))).toInt = ((i 0).val : Int) := hl
    have hc : ∀ a, 0 ≤ (vecScatterDims N E wf).start j D a + ((vecScatterDims N E wf).window j a : Int) ∧
        (vecScatterDims N E wf).start j D a + ((vecScatterDims N E wf).window j a : Int)
          < ((⟨1, ![N]⟩ : Shape).size a : Int) := by
      intro a
      obtain rfl : a = (0 : Fin 1) := Subsingleton.elim _ _
      rw [hs0, hw0, hl']
      show 0 ≤ ((i 0).val : Int) + ((0 : Nat) : Int) ∧ ((i 0).val : Int) + ((0 : Nat) : Int) < (N : Int)
      omega
    rw [dif_pos hc]
    congr 1
    funext a
    refine Fin.ext ?_
    obtain rfl : a = (0 : Fin 1) := Subsingleton.elim _ _
    show ((vecScatterDims N E wf).start j D (0 : Fin 1)
        + ((vecScatterDims N E wf).window j (0 : Fin 1) : Int)).toNat = (i 0).val
    rw [hs0, hw0, hl']
    omega

end VecScatter

section VecScatterSum
variable (wf : ScatterDims.WF ⟨1, ![N]⟩ ⟨2, ![E, 1]⟩ ⟨1, ![E]⟩ [] [0] [0] 1)

/-- The vector scatter-add at the literal record, read at `n`: an update index is its one coordinate, the edge
    number, and it lands on `n` iff `Lands D e n`. -/
theorem scatterAdd_vecDims_apply {φ : FTy} (x : FVec Ideal ⟨1, ![N]⟩ φ) (D : IVec ⟨2, ![E, 1]⟩ w)
    (u : FVec Ideal ⟨1, ![E]⟩ φ) (n : Fin N) :
    Host.scatterAdd (vecScatterDims N E wf) x D u (ix1 n)
      = x (ix1 n) + ∑ e ∈ Finset.univ.filter (fun e : Fin E => Lands D e n), u (ix1 e) := by
  show Ideal.hostScatterAdd (vecScatterDims N E wf) x D u (ix1 n) = _
  unfold Ideal.hostScatterAdd
  congr 1
  refine Finset.sum_nbij' (fun j => (j 0 : Fin E)) (fun e => ix1 e) ?_ ?_ ?_ ?_ ?_
  · intro j hj
    obtain ⟨a, rfl⟩ : ∃ a, j = ix1 a := ⟨_, eq_ix1 j⟩
    have h := (resultIdx?_vecDims wf (ix1 a) D (ix1 n)).mp (Finset.mem_filter.mp hj).2
    exact Finset.mem_filter.mpr ⟨Finset.mem_univ _, h⟩
  · intro e he
    have h : Lands D e n := (Finset.mem_filter.mp he).2
    exact Finset.mem_filter.mpr ⟨Finset.mem_univ _, (resultIdx?_vecDims wf (ix1 e) D (ix1 n)).mpr h⟩
  · intro j _
    obtain ⟨a, rfl⟩ : ∃ a, j = ix1 a := ⟨_, eq_ix1 j⟩
    rfl
  · intro e _
    rfl
  · intro j _
    obtain ⟨a, rfl⟩ : ∃ a, j = ix1 a := ⟨_, eq_ix1 j⟩
    rfl

end VecScatterSum

/-- THE VECTOR SCATTER-ADD READ AT `n`: the operand's entry plus the sum, over the edges `e` whose scatter index
    (read signed, not clamped) is `n`, of the update scalars `u (e)`. -/
theorem scatterAdd_vec_apply {φ : FTy} {d : ScatterDims ⟨1, ![N]⟩ ⟨2, ![E, 1]⟩ ⟨1, ![E]⟩} (hd : IsVecScatter d)
    (x : FVec Ideal ⟨1, ![N]⟩ φ) (D : IVec ⟨2, ![E, 1]⟩ w) (u : FVec Ideal ⟨1, ![E]⟩ φ) (n : Fin N) :
    Host.scatterAdd d x D u (ix1 n)
      = x (ix1 n) + ∑ e ∈ Finset.univ.filter (fun e : Fin E => Lands D e n), u (ix1 e) := by
  obtain ⟨uw, iw, sd, ivd, wf⟩ := d
  obtain ⟨h1, h2, h3, h4⟩ := hd
  dsimp only at h1 h2 h3 h4
  subst h1 h2 h3 h4
  exact scatterAdd_vecDims_apply wf x D u n

end Cert.RowGS

end
-- ==== Proof.LibVecGather.lean ====
/-
  VECTOR GATHER READ AT ONE ENTRY (a general lemma: any extents, any element type).

  A vector `x : [N]` is gathered at `E` start indices `S : [E, 1]` (what `x[idx]` lowers to for a rank-1 table):
  result entry `e` is the vector's entry at `S[e, 0]`, the start index read as a signed integer and clamped into
  `[0, N − 1]` — the same row `Cert.RowGS.srcRow` names for a row gather:
      gather x S (e) = x (srcRow S e)                                                  (`gather_vec_apply`).
  The one operand axis is collapsed and is the one the start index addresses; there is no offset axis and nothing is
  batched, so the operand coordinate is the clamped start alone.
-/
import proofs.«172764_j27797028339956_2_alg».proof.Proof.LibRowGatherScatter

noncomputable section

namespace Cert.VecGather

open Idealize.ShloMosaic Idealize.ShloMosaic.ValueIdx Cert.RowGS

variable {N E w : Nat}

/-- `g` gathers single entries of an `[N]` vector at `[E, 1]` start indices. -/
structure IsVecGather (g : GatherDims ⟨1, ![N]⟩ ⟨2, ![E, 1]⟩ ⟨1, ![E]⟩) : Prop where
  od : g.offsetDims = []
  cs : g.collapsedSliceDims = [0]
  ob : g.operandBatchingDims = []
  sb : g.startIndicesBatchingDims = []
  sim : g.startIndexMap = [0]
  ivd : g.indexVectorDim = 1
  ss : g.sliceSizes = ![1]

/-- The vector-gather dimension numbers as a literal record (any proof `wf` of their conditions). -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The gather at the literal record, read at `e`: on the one operand axis the coordinate is the clamped start (no
    batching coordinate; the axis is collapsed, so no offset). -/
theorem gather_vecDims_apply {α : Type} (hN : 0 < N)
    (wf : GatherDims.WF ⟨1, ![N]⟩ ⟨2, ![E, 1]⟩ ⟨1, ![E]⟩ [] [0] [] [0] [] 1 ![1])
    (x : (⟨1, ![N]⟩ : Shape).Idx → α) (S : IVec ⟨2, ![E, 1]⟩ w) (e : Fin E) :
    Host.gather (vecGatherDims N E wf) x S (ix1 e) = x (ix1 (srcRow hN S e)) := by
  unfold Host.gather
  congr 1
  funext a
  refine Fin.ext ?_
  obtain rfl : a = (0 : Fin 1) := Subsingleton.elim _ _
  show (vecGatherDims N E wf).start (ix1 e) S 0 + (vecGatherDims N E wf).batchCoord (ix1 e) 0
    + (vecGatherDims N E wf).offCoord (ix1 e) 0 = _
  rw [GatherDims.batchCoord_eq_zero _ _ _ List.not_mem_nil]
  rw [GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e)
      ⟨List.idxOf (0 : Fin 1) (vecGatherDims N E wf).startIndexMap,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- THE VECTOR GATHER READ AT `e`: the vector at `srcRow S e` (the start index `S[e, 0]`, read signed and clamped
    into `[0, N − 1]`). -/
theorem gather_vec_apply {α : Type} {g : GatherDims ⟨1, ![N]⟩ ⟨2, ![E, 1]⟩ ⟨1, ![E]⟩} (hg : IsVecGather g)
    (hN : 0 < N) (x : (⟨1, ![N]⟩ : Shape).Idx → α) (S : IVec ⟨2, ![E, 1]⟩ w) (e : Fin E) :
    Host.gather g x S (ix1 e) = x (ix1 (srcRow hN S e)) := by
  obtain ⟨od, cs, ob, sb, sim, ivd, ss, wf⟩ := g
  obtain ⟨h1, h2, h3, h4, h5, h6, h7⟩ := hg
  dsimp only at h1 h2 h3 h4 h5 h6 h7
  subst h1 h2 h3 h4 h5 h6 h7
  exact gather_vecDims_apply hN wf x S e

end Cert.VecGather

end
-- ==== Proof.LibGcnLaw.lean ====
/-
  The algebra that joins the two programs, on the extended reals.

  A graph-convolution layer sums, over the edges `e` that land on a node `n`, the source node's feature row scaled by
  the two ends' normalisers `d (src e) · d n`. One program multiplies every message by both factors before summing;
  the other scales the source rows by `d (src e)` first, sums, and multiplies the sum by `d n` afterwards. The two
  agree because `d n` is a non-negative number that is not `+∞`: such a factor distributes over a sum of extended
  reals whatever the summands are (an infinite summand of either sign included), while `+∞` or a negative factor would
  not. The normaliser is `1/√deg` where the degree is positive and `0` elsewhere, so it is non-negative and never
  `+∞` for every extended-real degree.
-/
import Idealize.ShloMosaic.PureOps.Ideal

noncomputable section

open scoped BigOperators

namespace Cert.GcnLaw

open Idealize.ShloMosaic

/-- A non-negative factor other than `+∞` distributes over a finite sum of extended reals. -/
theorem mul_sum {ι : Type} (s : Finset ι) (d : EReal) (h0 : 0 ≤ d) (ht : d ≠ ⊤) (f : ι → EReal) :
    d * ∑ e ∈ s, f e = ∑ e ∈ s, d * f e := by
  classical
  induction s using Finset.induction_on with
  | empty => simp
  | insert a s ha ih =>
    rw [Finset.sum_insert ha, Finset.sum_insert ha, EReal.left_distrib_of_nonneg_of_ne_top h0 ht, ih]

/-- THE LAYER LAW. Scaling the sum of the pre-scaled messages `a e · q e` by the target's normaliser `d` is summing the
    messages each scaled by the product `q e · d` of the two normalisers. (Both sums start from zero, as a scatter-add
    into a zero array does.) -/
theorem layer {ι : Type} (s : Finset ι) (d : EReal) (h0 : 0 ≤ d) (ht : d ≠ ⊤) (a q : ι → EReal) :
    d * (0 + ∑ e ∈ s, a e * q e) = 0 + ∑ e ∈ s, a e * (q e * d) := by
  rw [zero_add, zero_add, mul_sum s d h0 ht]
  refine Finset.sum_congr rfl fun e _ => ?_
  rw [mul_comm d, mul_assoc]

/-- The normaliser of a degree `x`: `1/√x` where `x` is positive, `0` elsewhere. -/
def normaliser (x : EReal) : EReal := if 0 < x then Ideal.rsqrt x else 0

theorem normaliser_nonneg (x : EReal) : 0 ≤ normaliser x := by
  unfold normaliser
  split
  · rename_i hx
    induction x using EReal.rec with
    | bot => exact absurd hx (by simp)
    | top => simp
    | coe r =>
      have hr : 0 < r := by exact_mod_cast hx
      rw [Ideal.rsqrt_coe, if_neg (not_lt.mpr hr.le), if_neg hr.ne']
      exact_mod_cast (inv_nonneg.mpr (Real.sqrt_nonneg r))
  · exact le_refl _

theorem normaliser_ne_top (x : EReal) : normaliser x ≠ ⊤ := by
  unfold normaliser
  split
  · rename_i hx
    induction x using EReal.rec with
    | bot => exact absurd hx (by simp)
    | top => simp
    | coe r =>
      have hr : 0 < r := by exact_mod_cast hx
      rw [Ideal.rsqrt_coe, if_neg (not_lt.mpr hr.le), if_neg hr.ne']
      exact EReal.coe_ne_top _
  · exact EReal.zero_ne_top

/-- The selection `where(x > 0, rsqrt x, 0)` as the programs spell it — a comparison's one-bit result choosing between
    the reciprocal square root and zero — is the normaliser. -/
theorem select_eq_normaliser (x : EReal) :
    Scalar.select (Ideal.cmp .ogt x 0) (Ideal.rsqrt x) (0 : EReal) = normaliser x := by
  unfold Scalar.select normaliser Ideal.cmp
  by_cases h : (0 : EReal) < x
  · simp [h]
  · simp [h]

end Cert.GcnLaw

end
-- ==== Proof.LibGcnLayer.lean ====
/-
  ONE GRAPH-CONVOLUTION LAYER, TWO WAYS (a general theorem: any extents, any records of the row-gather / row-scatter form).

  A node table `h : [N, C]` is gathered at the edges' sources and summed into the edges' targets. One program first
  scales row `n` of the table by the node's normaliser `d n` (the table `hs`), sums, and scales the summed row `n` by
  `d n` once more; the other multiplies every gathered row by the product of its two ends' normalisers and then sums.
  Entry by entry both are a sum over the edges `e` that land on the row:
      d n · Σ_e h[src e, c] · d (src e)   =   Σ_e h[src e, c] · (d (src e) · d (dst e)),
  because an edge that lands on `n` has target `n`, and because `d n` is non-negative and not `+∞`, so it distributes
  over the sum whatever the summands are.
-/
import proofs.«172764_j27797028339956_2_alg».proof.Proof.LibRowGatherScatter
import proofs.«172764_j27797028339956_2_alg».proof.Proof.LibVecGather
import proofs.«172764_j27797028339956_2_alg».proof.Proof.LibGcnLaw
import Idealize.ShloMosaic.Lib.Pipeline.Value
import Idealize.ShloMosaic.Lib.ValueIdx
import Idealize.ShloMosaic.Lib.Affine

noncomputable section

open scoped BigOperators

namespace Cert.GcnLayer

open Idealize.ShloMosaic Idealize.ShloMosaic.ValueIdx Cert.RowGS Cert.VecGather

variable {N E C : Nat}

/-- An edge that lands on node `n` has a non-negative target index, so wrapping negative indices round leaves it alone
    and clamping it into range gives `n` again. -/
theorem wrapped_target (hN : 0 < N) (D Sd : IVec ⟨2, ![E, 1]⟩ 32) (k : BitVec 32) (e : Fin E) (n : Fin N)
    (hw : Sd (ix2 e (0 : Fin 1)) = Scalar.select (IntOp.cmpi .slt (D (ix2 e (0 : Fin 1))) 0#32)
      (IntOp.addi (D (ix2 e (0 : Fin 1))) k) (D (ix2 e (0 : Fin 1))))
    (hl : Lands D e n) : srcRow hN Sd e = n := by
  have hx : (D (ix2 e (0 : Fin 1))).toInt = (n.val : Int) := hl
  have hc : ¬ IntOp.cmpi .slt (D (ix2 e (0 : Fin 1))) 0#32 = 1#1 := by
    rw [IntOp.cmpi_slt, hx]
    have : (0#32 : BitVec 32).toInt = 0 := by decide
    rw [this]
    omega
  have hs : Sd (ix2 e (0 : Fin 1)) = D (ix2 e (0 : Fin 1)) := by
    rw [hw]; unfold Scalar.select; exact if_neg hc
  apply Fin.ext
  show min (Sd (ix2 e (0 : Fin 1))).toInt.toNat (N - 1) = n.val
  rw [hs, hx]
  have hn : n.val < N := n.isLt
  simp only [Int.toNat_natCast]
  omega

/-- THE LAYER THEOREM. -/
theorem layer_eq (hN : 0 < N)
    {gd gd' : GatherDims ⟨2, ![N, C]⟩ ⟨2, ![E, 1]⟩ ⟨2, ![E, C]⟩} (hgd : IsRowGather gd) (hgd' : IsRowGather gd')
    {sd sd' : ScatterDims ⟨2, ![N, C]⟩ ⟨2, ![E, 1]⟩ ⟨2, ![E, C]⟩} (hsd : IsRowScatter sd) (hsd' : IsRowScatter sd')
    (zeros zeros' : FVec Ideal ⟨2, ![N, C]⟩ .f32) (hz : ∀ i, zeros i = 0) (hz' : ∀ i, zeros' i = 0)
    (D S Sd : IVec ⟨2, ![E, 1]⟩ 32)
    (hSd : ∀ (e : Fin E) (n : Fin N), Lands D e n → srcRow hN Sd e = n)
    (d : (⟨1, ![N]⟩ : Shape).Idx → EReal) (hd0 : ∀ n, 0 ≤ d (ix1 n)) (hdt : ∀ n, d (ix1 n) ≠ ⊤)
    (dcol : FVec Ideal ⟨2, ![N, C]⟩ .f32) (hdcol : ∀ n c, dcol (ix2 n c) = d (ix1 n))
    (nrm : FVec Ideal ⟨2, ![E, C]⟩ .f32)
    (hnrm : ∀ e c, nrm (ix2 e c) = d (ix1 (srcRow hN S e)) * d (ix1 (srcRow hN Sd e)))
    {φ : FTy} (hφ : φ.bits < (FTy.f32).bits) (hs : FVec Ideal ⟨2, ![N, C]⟩ φ) (h : FVec Ideal ⟨2, ![N, C]⟩ .f32)
    (hh : ∀ n c, (hs (ix2 n c) : EReal) = h (ix2 n c) * d (ix1 n)) :
    mulf dcol (Host.scatterAdd sd zeros D (extf .f32 (Host.gather gd hs S) hφ))
      = Host.scatterAdd sd' zeros' D (mulf (Host.gather gd' h S) nrm) := by
  funext i
  obtain ⟨n, c, rfl⟩ : ∃ (n : Fin N) (c : Fin C), i = ix2 n c := ⟨i 0, i 1, eq_ix2 i⟩
  rw [mulf_apply, hdcol, scatterAdd_row_apply hsd, scatterAdd_row_apply hsd', hz, hz']
  have hl : ∀ e ∈ Finset.univ.filter (fun e : Fin E => Lands D e n),
      (extf .f32 (Host.gather gd hs S) hφ) (ix2 e c) = h (ix2 (srcRow hN S e) c) * d (ix1 (srcRow hN S e)) := by
    intro e _
    rw [extf_apply, gather_row_apply hgd hN]
    exact hh _ _
  have hr : ∀ e ∈ Finset.univ.filter (fun e : Fin E => Lands D e n),
      (mulf (Host.gather gd' h S) nrm) (ix2 e c)
        = h (ix2 (srcRow hN S e) c) * (d (ix1 (srcRow hN S e)) * d (ix1 n)) := by
    intro e he
    rw [mulf_apply, gather_row_apply hgd' hN, hnrm, hSd e n (Finset.mem_filter.mp he).2]
  rw [Finset.sum_congr rfl hl, Finset.sum_congr rfl hr]
  exact Cert.GcnLaw.layer _ _ (hd0 n) (hdt n) _ _

end Cert.GcnLayer

end
-- ==== Proof.LibBroadcast.lean ====
/-
  BROADCASTS BY DIMENSION MAP, READ AT ONE ENTRY (general lemmas: any extents, any element type).

  * a vector `[E]` broadcast to the column `[E, 1]` along axis 0: the entry at `(e, 0)` is the vector's entry `e`;
  * a column `[N, 1]` broadcast to `[N, C]` along axes (0, 1): the entry at `(n, c)` is the column's entry at row `n`;
  * a vector `[C]` broadcast to the row `[1, C]` along axis 1 and then down `N` rows: the entry at `(n, c)` is the
    vector's entry `c`;
  * a rank-0 value broadcast over any shape: every entry is that value.
  (An operand axis of extent one is read at coordinate zero, so the extents that are not unit axes are assumed `≠ 1`.)
-/
import Idealize.ShloMosaic.Lib.Pipeline.Value
import Idealize.ShloMosaic.Lib.ValueIdx

noncomputable section

namespace Cert.Bcast

open Idealize.ShloMosaic Idealize.ShloMosaic.ValueIdx

/-- A vector as a column. -/
theorem col_apply {α : Type} {E : Nat} (hE : E ≠ 1) (x : (⟨1, ![E]⟩ : Shape).Idx → α)
    (h : (⟨1, ![E]⟩ : Shape).BroadcastsInDim ⟨2, ![E, 1]⟩ ![0]) (e : Fin E) (u : Fin 1) :
    broadcastInDim ⟨2, ![E, 1]⟩ ![0] h x (ix2 e u) = x (ix1 e) :=
  broadcastInDim_apply ![0] h x (ix2 e u) (ix1 e) (fun a => by
    match a with
    | ⟨0, _⟩ =>
      show e.val = if E = 1 then 0 else e.val
      rw [if_neg hE])

/-- A column repeated across `C` columns. -/
theorem rows_of_col_apply {α : Type} {N C : Nat} (hN : N ≠ 1) (x : (⟨2, ![N, 1]⟩ : Shape).Idx → α)
    (h : (⟨2, ![N, 1]⟩ : Shape).BroadcastsInDim ⟨2, ![N, C]⟩ ![0, 1]) (n : Fin N) (c : Fin C) :
    broadcastInDim ⟨2, ![N, C]⟩ ![0, 1] h x (ix2 n c) = x (ix2 n (0 : Fin 1)) :=
  broadcastInDim_apply ![0, 1] h x (ix2 n c) (ix2 n (0 : Fin 1)) (fun a => by
    match a with
    | ⟨0, _⟩ =>
      show n.val = if N = 1 then 0 else n.val
      rw [if_neg hN]
    | ⟨1, _⟩ =>
      show (0 : ℕ) = if (1 : ℕ) = 1 then 0 else c.val
      rw [if_pos rfl])

/-- A bias vector laid out as a row and repeated down `N` rows. -/
theorem bias_rows_apply {α : Type} {N C : Nat} (hC : C ≠ 1) (b : (⟨1, ![C]⟩ : Shape).Idx → α)
    (h1 : (⟨1, ![C]⟩ : Shape).BroadcastsInDim ⟨2, ![1, C]⟩ ![1])
    (h2 : (⟨2, ![1, C]⟩ : Shape).BroadcastsInDim ⟨2, ![N, C]⟩ ![0, 1]) (n : Fin N) (c : Fin C) :
    broadcastInDim ⟨2, ![N, C]⟩ ![0, 1] h2 (broadcastInDim ⟨2, ![1, C]⟩ ![1] h1 b) (ix2 n c) = b (ix1 c) :=
  (broadcastInDim_apply ![0, 1] h2 _ (ix2 n c) (ix2 (0 : Fin 1) c) (fun a => by
    match a with
    | ⟨0, _⟩ =>
      show (0 : ℕ) = if (1 : ℕ) = 1 then 0 else n.val
      rw [if_pos rfl]
    | ⟨1, _⟩ =>
      show c.val = if C = 1 then 0 else c.val
      rw [if_neg hC])).trans
  (broadcastInDim_apply ![1] h1 b (ix2 (0 : Fin 1) c) (ix1 c) (fun a => by
    match a with
    | ⟨0, _⟩ =>
      show c.val = if C = 1 then 0 else c.val
      rw [if_neg hC]))

/-- A rank-0 value broadcast over a shape. -/
theorem scalar_apply {α : Type} {s : Shape} (x : (⟨0, ![]⟩ : Shape).Idx → α)
    (h : (⟨0, ![]⟩ : Shape).BroadcastsInDim s ![]) (i : s.Idx) :
    broadcastInDim s ![] h x i = x ix0 :=
  broadcastInDim_apply (s := ⟨0, ![]⟩) ![] h x i ix0 (fun a => a.elim0)

end Cert.Bcast

end
-- ==== Proof.LibGcnBridge.lean ====
/-
  Program-free lemmas for the two-layer graph convolution: each says what one short chain of array operations
  reads at one entry, for any extents, with the arrays as variables.

  * a zero splat reads 0 everywhere;
  * the selection "reciprocal square root where the degree is positive, zero elsewhere" reads the normaliser of
    the degree, entry by entry;
  * a vector laid out as a row [1, C] reads the vector;
  * the column of wrapped indices (add the node count to a negative index, keep a non-negative one) reads that
    selection of the unwrapped column's entry;
  * the edge weight — the normaliser gathered at the two index columns and multiplied, then repeated across the
    lanes — reads d (first end) · d (second end);
  * the row-scaled product (x · w) ⊙ d reads the plain product's entry times d n;
  * ONE LAYER, with the normaliser multiplied on the right: (Σ over the edges into n of the scaled source rows) · d n
    is the second program's sum of weighted source rows. It is the layer theorem with the two factors of the
    entrywise product exchanged;
  * the rectified and the plain "scale the aggregate by d, add the bias row" against "add the bias, repeated down the
    rows, to the second program's aggregate", as whole arrays.
-/
import proofs.«172764_j27797028339956_2_alg».proof.Proof.LibGcnDense
import proofs.«172764_j27797028339956_2_alg».proof.Proof.LibGcnLayer
import proofs.«172764_j27797028339956_2_alg».proof.Proof.LibBroadcast
import proofs.«172764_j27797028339956_2_alg».proof.Proof.LibPlainDot
import proofs.«172764_j27797028339956_2_alg».proof.Proof.LibColumn
import Idealize.ShloMosaic.PureOps.Ideal.Laws

noncomputable section

namespace Cert.BridgeLib

open Idealize.ShloMosaic Idealize.ShloMosaic.ValueIdx Cert.RowGS Cert.VecGather

variable {N E K C : Nat}

/-- A zero splat reads 0. -/
theorem zeroSplat_apply {s : Shape} (h : (⟨0, ![]⟩ : Shape).BroadcastsInDim s ![]) (i : s.Idx) :
    (broadcastInDim s ![] h (constant (F := Ideal) ⟨0, ![]⟩ .f32 0x00000000#32) i : EReal) = 0 := by
  rw [Cert.Bcast.scalar_apply, constant_apply, Ideal.ofBits_zero_f32]

/-- Where the degree g is positive its reciprocal square root, zero elsewhere: the normaliser of g, entry by entry. -/
theorem normaliser_select {s : Shape} (g : FVec Ideal s .f32) (h : (⟨0, ![]⟩ : Shape).BroadcastsInDim s ![]) (i : s.Idx) :
    select (cmpf (F := Ideal) .ogt g (broadcastInDim s ![] h (constant ⟨0, ![]⟩ .f32 0x00000000#32))) (Host.rsqrt g)
      (broadcastInDim s ![] h (constant ⟨0, ![]⟩ .f32 0x00000000#32)) i = Cert.GcnLaw.normaliser (g i) := by
  rw [select_apply, cmpf_apply, Cert.Bcast.scalar_apply, constant_apply, Ideal.ofBits_zero_f32]
  exact Cert.GcnLaw.select_eq_normaliser (g i)

/-- A vector reshaped to a row reads, at (0, c), the vector at c. -/
theorem row_apply {α : Type} (b : (⟨1, ![C]⟩ : Shape).Idx → α) (h : (⟨1, ![C]⟩ : Shape).ShapeCasts ⟨2, ![1, C]⟩)
    (u : Fin 1) (c : Fin C) : shapeCast ⟨2, ![1, C]⟩ b h (ix2 u c) = b (ix1 c) :=
  shapeCast_apply b h _ _ (by
    have hu : u.val = 0 := by omega
    rw [Shape.rowMajor_val_two, Shape.rowMajor_val_one]
    show c.val = u.val * C + c.val
    rw [hu, Nat.zero_mul, Nat.zero_add])

/-- The column of wrapped indices, read at edge e: the unwrapped column's entry plus k when negative, else itself. -/
theorem wrapped_col_apply (hE : E ≠ 1) (t : IVec ⟨1, ![E]⟩ 32)
    (hb : (⟨0, ![]⟩ : Shape).BroadcastsInDim ⟨1, ![E]⟩ ![])
    (hc : (⟨1, ![E]⟩ : Shape).BroadcastsInDim ⟨2, ![E, 1]⟩ ![0]) (k : BitVec 32) (e : Fin E) :
    broadcastInDim ⟨2, ![E, 1]⟩ ![0] hc
        (select (cmpi .slt t (broadcastInDim ⟨1, ![E]⟩ ![] hb (constantI ⟨0, ![]⟩ 32 0#32)))
          (addi t (broadcastInDim ⟨1, ![E]⟩ ![] hb (constantI ⟨0, ![]⟩ 32 k))) t) (ix2 e (0 : Fin 1))
      = Scalar.select (IntOp.cmpi .slt (broadcastInDim ⟨2, ![E, 1]⟩ ![0] hc t (ix2 e (0 : Fin 1))) 0#32)
          (IntOp.addi (broadcastInDim ⟨2, ![E, 1]⟩ ![0] hc t (ix2 e (0 : Fin 1))) k)
          (broadcastInDim ⟨2, ![E, 1]⟩ ![0] hc t (ix2 e (0 : Fin 1))) := by
  rw [Cert.Bcast.col_apply hE, Cert.Bcast.col_apply hE]
  have h0 : broadcastInDim ⟨1, ![E]⟩ ![] hb (constantI ⟨0, ![]⟩ 32 0#32) (ix1 e) = 0#32 :=
    Cert.Bcast.scalar_apply _ _ _
  have hk : broadcastInDim ⟨1, ![E]⟩ ![] hb (constantI ⟨0, ![]⟩ 32 k) (ix1 e) = k :=
    Cert.Bcast.scalar_apply _ _ _
  show Scalar.select
      (IntOp.cmpi .slt (t (ix1 e)) (broadcastInDim ⟨1, ![E]⟩ ![] hb (constantI ⟨0, ![]⟩ 32 0#32) (ix1 e)))
      (IntOp.addi (t (ix1 e)) (broadcastInDim ⟨1, ![E]⟩ ![] hb (constantI ⟨0, ![]⟩ 32 k) (ix1 e))) (t (ix1 e)) = _
  rw [h0, hk]

/-- The product of a vector gathered at two index columns reads d (first end) · d (second end). -/
theorem weight_apply (hN : 0 < N) {g : GatherDims ⟨1, ![N]⟩ ⟨2, ![E, 1]⟩ ⟨1, ![E]⟩} (hg : IsVecGather g)
    (d : FVec Ideal ⟨1, ![N]⟩ .f32) (S Sd : IVec ⟨2, ![E, 1]⟩ 32) (e : Fin E) :
    mulf (Host.gather g d S) (Host.gather g d Sd) (ix1 e) = d (ix1 (srcRow hN S e)) * d (ix1 (srcRow hN Sd e)) := by
  rw [mulf_apply, gather_vec_apply hg hN, gather_vec_apply hg hN]

/-- The same weight laid out as a column and repeated across C lanes. -/
theorem weight_lanes_apply (hE : E ≠ 1) (hN : 0 < N) {g : GatherDims ⟨1, ![N]⟩ ⟨2, ![E, 1]⟩ ⟨1, ![E]⟩}
    (hg : IsVecGather g) (d : FVec Ideal ⟨1, ![N]⟩ .f32) (S Sd : IVec ⟨2, ![E, 1]⟩ 32)
    (hc : (⟨1, ![E]⟩ : Shape).BroadcastsInDim ⟨2, ![E, 1]⟩ ![0])
    (hr : (⟨2, ![E, 1]⟩ : Shape).BroadcastsInDim ⟨2, ![E, C]⟩ ![0, 1]) (e : Fin E) (c : Fin C) :
    broadcastInDim ⟨2, ![E, C]⟩ ![0, 1] hr
        (broadcastInDim ⟨2, ![E, 1]⟩ ![0] hc (mulf (Host.gather g d S) (Host.gather g d Sd))) (ix2 e c)
      = d (ix1 (srcRow hN S e)) * d (ix1 (srcRow hN Sd e)) := by
  rw [Cert.Bcast.rows_of_col_apply hE, Cert.Bcast.col_apply hE]
  exact weight_apply hN hg d S Sd e

/-- The row-scaled product reads the plain product's entry times the row's normaliser. -/
theorem scaledProduct_eq_dot {dd : DotDims ⟨2, ![N, K]⟩ ⟨2, ![K, C]⟩ ⟨2, ![N, C]⟩} (hdd : Cert.PlainDot.IsPlain dd)
    (x : FVec Ideal ⟨2, ![N, K]⟩ .f32) (w : FVec Ideal ⟨2, ![K, C]⟩ .f32)
    (dcol : (⟨2, ![N, 1]⟩ : Shape).Idx → EReal) (d : (⟨1, ![N]⟩ : Shape).Idx → EReal)
    (hdc : ∀ n, dcol (ix2 n (0 : Fin 1)) = d (ix1 n)) (n : Fin N) (c : Fin C) :
    Cert.Layers.scaledProduct x w dcol (ix2 n c) = Host.dotGeneral dd none x w (ix2 n c) * d (ix1 n) := by
  rw [Cert.Layers.scaledProduct_apply, Cert.PlainDot.dotGeneral_apply hdd, hdc]

/-- ONE LAYER, the normaliser multiplied on the right. -/
theorem layer_right (hN : 0 < N)
    {gd gd' : GatherDims ⟨2, ![N, C]⟩ ⟨2, ![E, 1]⟩ ⟨2, ![E, C]⟩} (hgd : IsRowGather gd) (hgd' : IsRowGather gd')
    {sd sd' : ScatterDims ⟨2, ![N, C]⟩ ⟨2, ![E, 1]⟩ ⟨2, ![E, C]⟩} (hsd : IsRowScatter sd) (hsd' : IsRowScatter sd')
    (zeros zeros' : FVec Ideal ⟨2, ![N, C]⟩ .f32) (hz : ∀ i, zeros i = 0) (hz' : ∀ i, zeros' i = 0)
    (D D' : IVec ⟨2, ![E, 1]⟩ 32) (hD : D = D') (S S' : IVec ⟨2, ![E, 1]⟩ 32) (hS : S = S')
    (Sd : IVec ⟨2, ![E, 1]⟩ 32) (hSd : ∀ (e : Fin E) (n : Fin N), Lands D e n → srcRow hN Sd e = n)
    (d : (⟨1, ![N]⟩ : Shape).Idx → EReal) (hd0 : ∀ n, 0 ≤ d (ix1 n)) (hdt : ∀ n, d (ix1 n) ≠ ⊤)
    (dcol : (⟨2, ![N, 1]⟩ : Shape).Idx → EReal) (hdc : ∀ n, dcol (ix2 n (0 : Fin 1)) = d (ix1 n))
    (nrm : FVec Ideal ⟨2, ![E, C]⟩ .f32)
    (hnrm : ∀ e c, nrm (ix2 e c) = d (ix1 (srcRow hN S e)) * d (ix1 (srcRow hN Sd e)))
    {φ : FTy} (hφ : φ.bits < (FTy.f32).bits) (hs : FVec Ideal ⟨2, ![N, C]⟩ φ) (h : FVec Ideal ⟨2, ![N, C]⟩ .f32)
    (hh : ∀ n c, (hs (ix2 n c) : EReal) = h (ix2 n c) * d (ix1 n)) (n : Fin N) (c : Fin C) :
    Host.scatterAdd sd zeros D (extf .f32 (Host.gather gd hs S) hφ) (ix2 n c) * dcol (ix2 n (0 : Fin 1))
      = Host.scatterAdd sd' zeros' D' (mulf (Host.gather gd' h S') nrm) (ix2 n c) := by
  subst hD hS
  have key := congrFun (Cert.GcnLayer.layer_eq hN hgd hgd' hsd hsd' zeros zeros' hz hz' D S Sd hSd d hd0 hdt
    (fun i => d (ix1 (i 0))) (fun _ _ => rfl) nrm hnrm hφ hs h hh) (ix2 n c)
  rw [mulf_apply] at key
  rw [hdc, mul_comm]
  exact key

/-- The rectified "scale by the normaliser, add the bias row" against "add the bias, repeated down the rows, to the
    second program's aggregate, then take the maximum with a zero splat", as whole arrays. -/
theorem hidden_eq (hC : C ≠ 1) (a : FVec Ideal ⟨2, ![N, C]⟩ .f32) (dcol : (⟨2, ![N, 1]⟩ : Shape).Idx → EReal)
    (b : FVec Ideal ⟨1, ![C]⟩ .f32) (hrow : (⟨1, ![C]⟩ : Shape).ShapeCasts ⟨2, ![1, C]⟩)
    (r : FVec Ideal ⟨2, ![N, C]⟩ .f32) (hr : ∀ n c, a (ix2 n c) * dcol (ix2 n (0 : Fin 1)) = r (ix2 n c))
    (h1 : (⟨1, ![C]⟩ : Shape).BroadcastsInDim ⟨2, ![1, C]⟩ ![1])
    (h2 : (⟨2, ![1, C]⟩ : Shape).BroadcastsInDim ⟨2, ![N, C]⟩ ![0, 1])
    (hz : (⟨0, ![]⟩ : Shape).BroadcastsInDim ⟨2, ![N, C]⟩ ![]) :
    Cert.Layers.hidden a dcol (shapeCast ⟨2, ![1, C]⟩ b hrow)
      = maximumf (addf r (broadcastInDim ⟨2, ![N, C]⟩ ![0, 1] h2 (broadcastInDim ⟨2, ![1, C]⟩ ![1] h1 b)))
          (broadcastInDim ⟨2, ![N, C]⟩ ![] hz (constant (F := Ideal) ⟨0, ![]⟩ .f32 0x00000000#32)) := by
  funext i
  obtain ⟨n, c, rfl⟩ : ∃ (n : Fin N) (c : Fin C), i = ix2 n c := ⟨i 0, i 1, eq_ix2 i⟩
  rw [Cert.Layers.hidden_apply, row_apply, hr, maximumf_apply, addf_apply, Cert.Bcast.bias_rows_apply hC,
    zeroSplat_apply]

/-- The plain "scale by the normaliser, add the bias row" against "add the bias, repeated down the rows, to the second
    program's aggregate", as whole arrays. -/
theorem scaleBias_eq (hC : C ≠ 1) (a : FVec Ideal ⟨2, ![N, C]⟩ .f32) (dcol : (⟨2, ![N, 1]⟩ : Shape).Idx → EReal)
    (b : FVec Ideal ⟨1, ![C]⟩ .f32) (hrow : (⟨1, ![C]⟩ : Shape).ShapeCasts ⟨2, ![1, C]⟩)
    (r : FVec Ideal ⟨2, ![N, C]⟩ .f32) (hr : ∀ n c, a (ix2 n c) * dcol (ix2 n (0 : Fin 1)) = r (ix2 n c))
    (h1 : (⟨1, ![C]⟩ : Shape).BroadcastsInDim ⟨2, ![1, C]⟩ ![1])
    (h2 : (⟨2, ![1, C]⟩ : Shape).BroadcastsInDim ⟨2, ![N, C]⟩ ![0, 1]) :
    Cert.Layers.scaleBias a dcol (shapeCast ⟨2, ![1, C]⟩ b hrow)
      = addf r (broadcastInDim ⟨2, ![N, C]⟩ ![0, 1] h2 (broadcastInDim ⟨2, ![1, C]⟩ ![1] h1 b)) := by
  funext i
  obtain ⟨n, c, rfl⟩ : ∃ (n : Fin N) (c : Fin C), i = ix2 n c := ⟨i 0, i 1, eq_ix2 i⟩
  rw [Cert.Layers.scaleBias_apply, row_apply, hr, addf_apply, Cert.Bcast.bias_rows_apply hC]

end Cert.BridgeLib

end
-- ==== Proof.Bridge.lean ====
/-
  The two programs compute one function of their six arguments.

  Both build the same edge vectors (the given edges followed by one self loop per node), the same degree count and the
  same normaliser d, by the same operations: those arrays are the same terms. They differ in where d enters a layer.
  The first program scales row n of the dense product by d n, sums into each node the source rows of its edges, and
  multiplies the summed row n by d n once more before adding the bias; the second multiplies every gathered source row
  by d (source) · d (target) and sums. An edge that lands on node n has n as its wrapped and clamped target, and d n is
  a non-negative extended real other than +∞, so it distributes over the sum: layer by layer the two aggregates agree,
  then the biases (and, between the layers, the maximum with zero) are added to equal arrays.
-/
import proofs.«172764_j27797028339956_2_alg».proof.Proof.KStages
import proofs.«172764_j27797028339956_2_alg».proof.Proof.RefReadP
import proofs.«172764_j27797028339956_2_alg».proof.Proof.Gen.ReferenceIdeal
import proofs.«172764_j27797028339956_2_alg».proof.Proof.LibGcnBridge

set_option maxRecDepth 16384

noncomputable section

namespace Cert.Bridge

open Idealize.ShloMosaic Idealize.ShloMosaic.ValueIdx Cert.RowGS
open Cert.KernelIdeal Cert.ReferenceIdeal

/-- The edge list as both programs receive it. -/
abbrev Edges := IVec Cert.KernelIdeal.S2x1600000 32

/-- There is at least one node. -/
theorem nodes_pos : 0 < 100000 := by omega

/-! ## The arrays both programs build alike -/

theorem dst_eq (ei : Edges) : Stage.dst ei = ReadP.val_main_v6 (F := Ideal) ei := rfl

theorem dinv_eq (ei : Edges) : Stage.dinv ei = ReadP.val_main_v14 (F := Ideal) ei := rfl

theorem srcIdx_eq20 (ei : Edges) : Stage.srcIdx ei = ReadP.val_main_v20 (F := Ideal) ei := rfl

theorem srcIdx_eq36 (ei : Edges) : Stage.srcIdx ei = ReadP.val_main_v36 (F := Ideal) ei := rfl

theorem srcIdx_eq54 (ei : Edges) : Stage.srcIdx ei = ReadP.val_main_v54 (F := Ideal) ei := rfl

theorem dstIdx_eq42 (ei : Edges) : Stage.dstIdx ei = ReadP.val_main_v42 (F := Ideal) ei := rfl

theorem dstIdx_eq60 (ei : Edges) : Stage.dstIdx ei = ReadP.val_main_v60 (F := Ideal) ei := rfl

/-! ## The normaliser -/

/-- At node n the normaliser is 1/√(deg n) for a positive degree and 0 otherwise. -/
theorem dinv_apply (ei : Edges) (n : Fin 100000) :
    Stage.dinv ei (ix1 n) = Cert.GcnLaw.normaliser (Stage.deg ei (ix1 n)) :=
  Cert.BridgeLib.normaliser_select (Stage.deg ei) _ (ix1 n)

theorem dinv_nonneg (ei : Edges) (n : Fin 100000) : 0 ≤ Stage.dinv ei (ix1 n) := by
  rw [dinv_apply]; exact Cert.GcnLaw.normaliser_nonneg _

theorem dinv_ne_top (ei : Edges) (n : Fin 100000) : Stage.dinv ei (ix1 n) ≠ ⊤ := by
  rw [dinv_apply]; exact Cert.GcnLaw.normaliser_ne_top _

/-- The normaliser as a column reads d n in row n. -/
theorem dcol_apply (ei : Edges) (n : Fin 100000) :
    Stage.dcol ei (ix2 n (0 : Fin 1)) = Stage.dinv ei (ix1 n) :=
  Cert.Column.shapeCast_a_a1_apply _ _ n 0

/-! ## The targets, wrapped, and the edge weight -/

/-- The second program's wrapped target of edge e: the target plus the node count when negative, else the target. -/
theorem wrappedDst_apply (ei : Edges) (e : Fin 1700000) :
    ReadP.val_main_v27 (F := Ideal) ei (ix2 e (0 : Fin 1))
      = Scalar.select (IntOp.cmpi .slt (Stage.dstIdx ei (ix2 e (0 : Fin 1))) 0#32)
          (IntOp.addi (Stage.dstIdx ei (ix2 e (0 : Fin 1))) 100000#32) (Stage.dstIdx ei (ix2 e (0 : Fin 1))) := by
  unfold Stage.dstIdx
  rw [dst_eq]
  exact Cert.BridgeLib.wrapped_col_apply (by omega) (ReadP.val_main_v6 (F := Ideal) ei) _ _ 100000#32 e

/-- An edge whose target index is n has n as its wrapped and clamped target. -/
theorem wrappedDst_lands (ei : Edges) (e : Fin 1700000) (n : Fin 100000) (hl : Lands (Stage.dstIdx ei) e n) :
    srcRow nodes_pos (ReadP.val_main_v27 (F := Ideal) ei) e = n :=
  Cert.GcnLayer.wrapped_target nodes_pos (Stage.dstIdx ei) _ 100000#32 e n (wrappedDst_apply ei e) hl

/-- The second program's edge weight across the 128 lanes of layer 1: the product of the two ends' normalisers. -/
theorem weight128_apply (ei : Edges) (e : Fin 1700000) (c : Fin 128) :
    ReadP.val_main_v39 (F := Ideal) ei (ix2 e c)
      = Stage.dinv ei (ix1 (srcRow nodes_pos (Stage.srcIdx ei) e))
        * Stage.dinv ei (ix1 (srcRow nodes_pos (ReadP.val_main_v27 (F := Ideal) ei) e)) := by
  rw [dinv_eq, srcIdx_eq20]
  exact Cert.BridgeLib.weight_lanes_apply (by omega) nodes_pos ⟨rfl, rfl, rfl, rfl, rfl, rfl, rfl⟩ (ReadP.val_main_v14 (F := Ideal) ei)
    (ReadP.val_main_v20 (F := Ideal) ei) (ReadP.val_main_v27 (F := Ideal) ei) _ _ e c

/-- The same weight across the 64 lanes of layer 2. -/
theorem weight64_apply (ei : Edges) (e : Fin 1700000) (c : Fin 64) :
    ReadP.val_main_v57 (F := Ideal) ei (ix2 e c)
      = Stage.dinv ei (ix1 (srcRow nodes_pos (Stage.srcIdx ei) e))
        * Stage.dinv ei (ix1 (srcRow nodes_pos (ReadP.val_main_v27 (F := Ideal) ei) e)) := by
  rw [dinv_eq, srcIdx_eq20]
  exact Cert.BridgeLib.weight_lanes_apply (by omega) nodes_pos ⟨rfl, rfl, rfl, rfl, rfl, rfl, rfl⟩ (ReadP.val_main_v14 (F := Ideal) ei)
    (ReadP.val_main_v20 (F := Ideal) ei) (ReadP.val_main_v27 (F := Ideal) ei) _ _ e c

/-! ## Layer 1 -/

/-- Row n of the first program's scaled product is row n of x · W1 times d n. -/
theorem hs1_apply (x : FVec Ideal Cert.KernelIdeal.S100000x128 .f32) (ei : Edges)
    (W1 : FVec Ideal Cert.KernelIdeal.S128x128 .f32) (n : Fin 100000) (c : Fin 128) :
    (Stage.hs1 x ei W1 (ix2 n c) : EReal) = ReadP.val_main_v30 (F := Ideal) x W1 (ix2 n c) * Stage.dinv ei (ix1 n) :=
  Cert.BridgeLib.scaledProduct_eq_dot (dd := Cert.ReferenceIdeal.dot_S100000x128_S128x128_S100000x128_1_0_0_1_n_n) ⟨rfl, rfl, rfl, rfl, rfl, rfl⟩ x W1 (Stage.dcol ei) (Stage.dinv ei) (dcol_apply ei) n c

/-- The first program's aggregate, its row n scaled by d n, is the second program's aggregate. -/
theorem agg1_apply (x : FVec Ideal Cert.KernelIdeal.S100000x128 .f32) (ei : Edges)
    (W1 : FVec Ideal Cert.KernelIdeal.S128x128 .f32) (n : Fin 100000) (c : Fin 128) :
    Stage.agg1 x ei W1 (ix2 n c) * Stage.dcol ei (ix2 n (0 : Fin 1)) = ReadP.val_main_v43 (F := Ideal) x ei W1 (ix2 n c) :=
  Cert.BridgeLib.layer_right nodes_pos (gd := Cert.KernelIdeal.gather_S100000x128_S1700000x1_S1700000x128_1_0_n_n_0_1_1128) (gd' := Cert.ReferenceIdeal.gather_S100000x128_S1700000x1_S1700000x128_1_0_n_n_0_1_1128) ⟨rfl, rfl, rfl, rfl, rfl, rfl, rfl⟩ ⟨rfl, rfl, rfl, rfl, rfl, rfl, rfl⟩
    (sd := Cert.KernelIdeal.scatter_S100000x128_S1700000x1_S1700000x128_1_0_0_1) (sd' := Cert.ReferenceIdeal.scatter_S100000x128_S1700000x1_S1700000x128_1_0_0_1) ⟨rfl, rfl, rfl, rfl⟩ ⟨rfl, rfl, rfl, rfl⟩ _ _
    (Cert.BridgeLib.zeroSplat_apply _) (Cert.BridgeLib.zeroSplat_apply _)
    (Stage.dstIdx ei) (ReadP.val_main_v42 (F := Ideal) ei) (dstIdx_eq42 ei)
    (Stage.srcIdx ei) (ReadP.val_main_v36 (F := Ideal) ei) (srcIdx_eq36 ei)
    (ReadP.val_main_v27 (F := Ideal) ei) (wrappedDst_lands ei)
    (Stage.dinv ei) (dinv_nonneg ei) (dinv_ne_top ei) (Stage.dcol ei) (dcol_apply ei)
    (ReadP.val_main_v39 (F := Ideal) ei) (weight128_apply ei)
    Cert.KernelIdeal.Facts₀.bitsLt_bf16_f32 (Stage.hs1 x ei W1) (ReadP.val_main_v30 (F := Ideal) x W1)
    (hs1_apply x ei W1) n c

/-- The rectified layer-1 outputs agree as whole arrays. -/
theorem hidden1_eq (x : FVec Ideal Cert.KernelIdeal.S100000x128 .f32) (ei : Edges)
    (W1 : FVec Ideal Cert.KernelIdeal.S128x128 .f32) (b1 : FVec Ideal Cert.KernelIdeal.S128 .f32)
    (h : Cert.KernelIdeal.S128.ShapeCasts Cert.KernelIdeal.S1x128) :
    Cert.Layers.hidden (N := 100000) (C := 128) (Stage.agg1 x ei W1) (Stage.dcol ei)
        (shapeCast Cert.KernelIdeal.S1x128 b1 h)
      = ReadP.val_main_v47 (F := Ideal) x ei W1 b1 :=
  Cert.BridgeLib.hidden_eq (by omega) (Stage.agg1 x ei W1) (Stage.dcol ei) b1 h
    (ReadP.val_main_v43 (F := Ideal) x ei W1) (agg1_apply x ei W1) _ _ _

/-! ## Layer 2 -/

/-- Row n of the first program's second scaled product is row n of (hidden · W2) times d n. -/
theorem hs2_apply (x : FVec Ideal Cert.KernelIdeal.S100000x128 .f32) (ei : Edges)
    (W1 : FVec Ideal Cert.KernelIdeal.S128x128 .f32) (b1 : FVec Ideal Cert.KernelIdeal.S128 .f32)
    (W2 : FVec Ideal Cert.KernelIdeal.S128x64 .f32) (n : Fin 100000) (c : Fin 64) :
    (Stage.hs2 x ei W1 b1 W2 (ix2 n c) : EReal)
      = ReadP.val_main_v48 (F := Ideal) x ei W1 b1 W2 (ix2 n c) * Stage.dinv ei (ix1 n) := by
  unfold Stage.hs2 Cert.Layers.hiddenProduct
  rw [hidden1_eq]
  exact Cert.BridgeLib.scaledProduct_eq_dot (dd := Cert.ReferenceIdeal.dot_S100000x128_S128x64_S100000x64_1_0_0_1_n_n) ⟨rfl, rfl, rfl, rfl, rfl, rfl⟩ (ReadP.val_main_v47 (F := Ideal) x ei W1 b1) W2
    (Stage.dcol ei) (Stage.dinv ei) (dcol_apply ei) n c

/-- The first program's second aggregate, its row n scaled by d n, is the second program's. -/
theorem agg2_apply (x : FVec Ideal Cert.KernelIdeal.S100000x128 .f32) (ei : Edges)
    (W1 : FVec Ideal Cert.KernelIdeal.S128x128 .f32) (b1 : FVec Ideal Cert.KernelIdeal.S128 .f32)
    (W2 : FVec Ideal Cert.KernelIdeal.S128x64 .f32) (n : Fin 100000) (c : Fin 64) :
    Stage.agg2 x ei W1 b1 W2 (ix2 n c) * Stage.dcol ei (ix2 n (0 : Fin 1))
      = ReadP.val_main_v61 (F := Ideal) x ei W1 b1 W2 (ix2 n c) :=
  Cert.BridgeLib.layer_right nodes_pos (gd := Cert.KernelIdeal.gather_S100000x64_S1700000x1_S1700000x64_1_0_n_n_0_1_164) (gd' := Cert.ReferenceIdeal.gather_S100000x64_S1700000x1_S1700000x64_1_0_n_n_0_1_164) ⟨rfl, rfl, rfl, rfl, rfl, rfl, rfl⟩ ⟨rfl, rfl, rfl, rfl, rfl, rfl, rfl⟩
    (sd := Cert.KernelIdeal.scatter_S100000x64_S1700000x1_S1700000x64_1_0_0_1) (sd' := Cert.ReferenceIdeal.scatter_S100000x64_S1700000x1_S1700000x64_1_0_0_1) ⟨rfl, rfl, rfl, rfl⟩ ⟨rfl, rfl, rfl, rfl⟩ _ _
    (Cert.BridgeLib.zeroSplat_apply _) (Cert.BridgeLib.zeroSplat_apply _)
    (Stage.dstIdx ei) (ReadP.val_main_v60 (F := Ideal) ei) (dstIdx_eq60 ei)
    (Stage.srcIdx ei) (ReadP.val_main_v54 (F := Ideal) ei) (srcIdx_eq54 ei)
    (ReadP.val_main_v27 (F := Ideal) ei) (wrappedDst_lands ei)
    (Stage.dinv ei) (dinv_nonneg ei) (dinv_ne_top ei) (Stage.dcol ei) (dcol_apply ei)
    (ReadP.val_main_v57 (F := Ideal) ei) (weight64_apply ei)
    Cert.KernelIdeal.Facts₀.bitsLt_bf16_f32 (Stage.hs2 x ei W1 b1 W2) (ReadP.val_main_v48 (F := Ideal) x ei W1 b1 W2)
    (hs2_apply x ei W1 b1 W2) n c

/-! ## The result -/

/-- THE BRIDGE: the first program's value and the second program's value are one function of the six arguments. -/
theorem out_eq (x : FVec Ideal Cert.KernelIdeal.S100000x128 .f32) (ei : IVec Cert.KernelIdeal.S2x1600000 32)
    (W1 : FVec Ideal Cert.KernelIdeal.S128x128 .f32) (b1 : FVec Ideal Cert.KernelIdeal.S128 .f32)
    (W2 : FVec Ideal Cert.KernelIdeal.S128x64 .f32) (b2 : FVec Ideal Cert.KernelIdeal.S64 .f32) :
    Cert.KernelIdeal.Stage.out x ei W1 b1 W2 b2
      = Cert.ReferenceIdeal.ReadP.val_main_v64 (F := Ideal) x ei W1 b1 W2 b2 :=
  Cert.BridgeLib.scaleBias_eq (by omega) (Stage.agg2 x ei W1 b1 W2) (Stage.dcol ei) b2 _
    (ReadP.val_main_v61 (F := Ideal) x ei W1 b1 W2) (agg2_apply x ei W1 b1 W2) _ _

end Cert.Bridge

end
-- ==== Proof.lean ====
/-
  A two-layer graph convolution, two ways — the proof of `Cert.Claim`.

  The graph has `N = 100000` nodes and `1700000` edges: the `1600000` given ones and one self loop per node. With
  `deg n` the number of edges into node `n`, the nodes' normaliser is `d n = 1/√(deg n)` where the degree is positive
  and `0` elsewhere. One layer maps node features `h` to
      out[n, c] = Σ_{e into n} (h · W)[src e, c] · (d (src e) · d n) + b[c],
  and the network is two such layers with a rectification between them.

  The REFERENCE computes exactly that: the dense product, a row gather at the edges' sources, the product with the
  per-edge weight `d (src e) · d (dst e)`, a scatter-add into the edges' targets, the bias.

  The KERNEL never forms the per-edge weight. A first pipelined call scales row `n` of `x · W1` by `d n`; the host
  gathers those rows at the sources and sums them into the targets as they are; a second, fused call multiplies the
  summed row `n` by `d n`, adds the bias, rectifies — that is layer 1's output — and at once forms the next product,
  `· W2`, scaled by `d n` again; the host gathers and sums again; a third call multiplies by `d n` and adds the second
  bias. (The scaled rows travel as bf16; at the ideal instance a change of float format is the identity.)

  The two agree on the extended reals because `d n` is non-negative and never `+∞`, so it distributes over the finite
  sum of the messages into `n` whatever those are — an infinite summand of either sign included — and because an edge
  that lands on `n` has target `n` (also after the gather's wrapping of negative indices and clamping). No finiteness
  of the inputs is used.

  How the pieces fit. The kernel program's run ends with its result array at a fold through @main from the launch
  memory (`Run.run_named`); walking that fold back through the three calls — each call's output array being one
  whole-array function of the arrays it entered with (`Regions.final0`, `final1`, `final2`: 25 row blocks of 4000
  rows that tile the array) — and through the host's gathers and scatter-adds gives the result as `Stage.out` of
  the six arguments (`Walk.W8_v42`). The reference program's run ends with its result at the composed term of its 83
  operations, `ReadP.val_main_v64` of the arguments. `Bridge.out_eq` says the two are one function.
  The three frames are the generated ones (the reference's is its run with the result dropped); the idealization
  rewrote no operation, so `preserves` is trivial.
-/
import proofs.«172764_j27797028339956_2_alg».proof.Defs
import proofs.«172764_j27797028339956_2_alg».proof.Proof.Gen.Kernel
import proofs.«172764_j27797028339956_2_alg».proof.Proof.Gen.Kernel.Skeleton
import proofs.«172764_j27797028339956_2_alg».proof.Proof.Gen.Kernel.Launch
import proofs.«172764_j27797028339956_2_alg».proof.Proof.Gen.Kernel.Points
import proofs.«172764_j27797028339956_2_alg».proof.Proof.Gen.Kernel.Frame
import proofs.«172764_j27797028339956_2_alg».proof.Proof.Gen.KernelIdeal
import proofs.«172764_j27797028339956_2_alg».proof.Proof.Gen.KernelIdeal.Skeleton
import proofs.«172764_j27797028339956_2_alg».proof.Proof.Gen.KernelIdeal.Launch
import proofs.«172764_j27797028339956_2_alg».proof.Proof.Gen.KernelIdeal.Points
import proofs.«172764_j27797028339956_2_alg».proof.Proof.Gen.KernelIdeal.Frame
import proofs.«172764_j27797028339956_2_alg».proof.Proof.Gen.ReferenceIdeal
import proofs.«172764_j27797028339956_2_alg».proof.Proof.Gen.Pre_finite_inputs
import proofs.«172764_j27797028339956_2_alg».proof.Proof.KernelRun
import proofs.«172764_j27797028339956_2_alg».proof.Proof.HostWalk
import proofs.«172764_j27797028339956_2_alg».proof.Proof.Region0
import proofs.«172764_j27797028339956_2_alg».proof.Proof.Region1
import proofs.«172764_j27797028339956_2_alg».proof.Proof.Region2
import proofs.«172764_j27797028339956_2_alg».proof.Proof.RefReadP
import proofs.«172764_j27797028339956_2_alg».proof.Proof.Bridge
import Idealize.ShloMosaic.Adequacy
import Idealize.ShloMosaic.Init

set_option maxRecDepth 16384

noncomputable section

namespace Cert.Proof

open Idealize.ShloMosaic Idealize.SL.Sem

/-- The word-level kernel program runs and leaves its arguments alone. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference program's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments both programs end with the two-layer network of the arguments:
    the kernel program at `Stage.out` of them (the walk back through its three calls), the reference at the composed
    term of its operations, and the two are one function (`Bridge.out_eq`). -/
theorem algebraic : Cert.algebraic_KernelIdeal_ReferenceIdeal := by
  intro m ρ m' ρ' _ hagree
  refine ⟨fun c => Cert.KernelIdeal.Stage.out (Cert.KernelIdeal.Walk.arg0 m c) (Cert.KernelIdeal.Walk.arg1 m c)
      (Cert.KernelIdeal.Walk.arg2 m c) (Cert.KernelIdeal.Walk.arg3 m c) (Cert.KernelIdeal.Walk.arg4 m c)
      (Cert.KernelIdeal.Walk.arg5 m c), ?_, ?_⟩
  · exact (θ_run Cert.KernelIdeal.defs _ _).mono
      (fun r h c => ⟨(h c).1.trans (Cert.KernelIdeal.Walk.W8_v42 m ρ c (fun V c => Cert.KernelIdeal.Regions.final0 V c)
          (fun V c => Cert.KernelIdeal.Regions.final1 V c) (fun V c => Cert.KernelIdeal.Regions.final2 V c)), (h c).2⟩)
      (Cert.KernelIdeal.Run.run_named (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v64_eq, (hagree c).1, (hagree c).2.1, (hagree c).2.2.1, (hagree c).2.2.2.1,
      (hagree c).2.2.2.2.1, (hagree c).2.2.2.2.2]
    exact (Cert.Bridge.out_eq _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
